-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : IVec S2x800000 32) (main_arg6 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S50000x1 : Shape := ⟨2, ![50000, 1]⟩
abbrev S850000x256 : Shape := ⟨2, ![850000, 256]⟩
abbrev S1x256 : Shape := ⟨2, ![1, 256]⟩
abbrev S5000x1 : Shape := ⟨2, ![5000, 1]⟩
abbrev S500x256 : Shape := ⟨2, ![500, 256]⟩
abbrev S500 : Shape := ⟨1, ![500]⟩
abbrev S500x1 : Shape := ⟨2, ![500, 1]⟩

abbrev nBuf : Space → Nat
  | .hbm => 84
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x800000, .i32⟩
  | .hbm, ⟨6, _⟩ => ⟨S50000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x256, .f32⟩
  | .hbm, ⟨29, _⟩ => ⟨S50000x1, .f32⟩
  | .hbm, ⟨30, _⟩ => ⟨S50000x256, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S50000x1, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S50000x1, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S50000x1, .f32⟩
  | .hbm, ⟨66, _⟩ => ⟨S1x256, .f32⟩
  | .hbm, ⟨67, _⟩ => ⟨S50000x256, .f32⟩
  | .hbm, ⟨68, _⟩ => ⟨S_, .f32⟩
  | .hbm, ⟨69, _⟩ => ⟨S500x256, .f32⟩
  | .hbm, ⟨70, _⟩ => ⟨S50000x1, .i32⟩
  | .hbm, ⟨71, _⟩ => ⟨S500x256, .f32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S500, .f32⟩
  | .hbm, ⟨76, _⟩ => ⟨S50000x1, .i32⟩
  | .hbm, ⟨77, _⟩ => ⟨S500, .f32⟩
  | .hbm, ⟨78, _⟩ => ⟨S_, .f32⟩
  | .hbm, ⟨79, _⟩ => ⟨S500, .f32⟩
  | .hbm, ⟨80, _⟩ => ⟨S500, .f32⟩
  | .hbm, ⟨81, _⟩ => ⟨S500x1, .f32⟩
  | .hbm, ⟨82, _⟩ => ⟨S500x256, .f32⟩
  | .hbm, ⟨83, _⟩ => ⟨S500x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x1, .f32⟩
  | .local _ .vmem, ⟨8, _⟩ => ⟨S5000x1, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x1, .f32⟩
  | .local _ .vmem, ⟨20, _⟩ => ⟨S5000x1, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S50000_S50000x1 : S50000.ShapeCasts S50000x1
  shapeCasts_S256_S1x256 : S256.ShapeCasts S1x256
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  bcast_S_S500x256 : S_.BroadcastsInDim S500x256 (![] : Fin 0 → Fin S500x256.rank)
  bcast_S_S500 : S_.BroadcastsInDim S500 (![] : Fin 0 → Fin S500.rank)
  bcast_S500_S500x1_0 : S500.BroadcastsInDim S500x1 (![0] : Fin 1 → Fin S500x1.rank)
  bcast_S500x1_S500x256_0_1 : S500x1.BroadcastsInDim S500x256 (![0, 1] : Fin 2 → Fin S500x256.rank)
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  scatter_S500x256_S50000x1_S50000x256_1_0_0_1_wf : ScatterDims.WF S500x256 S50000x1 S50000x256 [1] [0] [0] 1
  scatter_S500_S50000x1_S50000_n_0_0_1_wf : ScatterDims.WF S500 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S50000x256.size a
  hwx3_3 : ∀ i : grid3.Coords, EltTy.bits .f32 = 32 ∨ (Rect.block (s := S50000x256) S5000x256.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S500x256_S50000x1_S50000x256_1_0_0_1 : ScatterDims S500x256 S50000x1 S50000x256 where
  updateWindowDims := [1]
  insertedWindowDims := [0]
  scatterDimsToOperandDims := [0]
  indexVectorDim := 1
  wf := scatter_S500x256_S50000x1_S50000x256_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S500x256 : Shape := ⟨2, ![500, 256]⟩
abbrev S50000x1 : Shape := ⟨2, ![50000, 1]⟩
abbrev S500 : Shape := ⟨1, ![500]⟩
abbrev S500x1 : Shape := ⟨2, ![500, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x800000, .i32⟩
  | .hbm, ⟨6, _⟩ => ⟨S50000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x256, .f32⟩
  | .hbm, ⟨80, _⟩ => ⟨S850000x1, .f32⟩
  | .hbm, ⟨81, _⟩ => ⟨S850000x256, .f32⟩
  | .hbm, ⟨82, _⟩ => ⟨S850000x256, .f32⟩
  | .hbm, ⟨83, _⟩ => ⟨S_, .f32⟩
  | .hbm, ⟨84, _⟩ => ⟨S50000x256, .f32⟩
  | .hbm, ⟨85, _⟩ => ⟨S850000x1, .i32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S_, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S500x256, .f32⟩
  | .hbm, ⟨95, _⟩ => ⟨S50000x1, .i32⟩
  | .hbm, ⟨96, _⟩ => ⟨S500x256, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S500, .f32⟩
  | .hbm, ⟨101, _⟩ => ⟨S50000x1, .i32⟩
  | .hbm, ⟨102, _⟩ => ⟨S500, .f32⟩
  | .hbm, ⟨103, _⟩ => ⟨S_, .f32⟩
  | .hbm, ⟨104, _⟩ => ⟨S500, .f32⟩
  | .hbm, ⟨105, _⟩ => ⟨S500, .f32⟩
  | .hbm, ⟨106, _⟩ => ⟨S500x1, .f32⟩
  | .hbm, ⟨107, _⟩ => ⟨S500x256, .f32⟩
  | .hbm, ⟨108, _⟩ => ⟨S500x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S500x256 : S_.BroadcastsInDim S500x256 (![] : Fin 0 → Fin S500x256.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x256_0_1 : S500x1.BroadcastsInDim S500x256 (![0, 1] : Fin 2 → Fin S500x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S500x256_S50000x1_S50000x256_1_0_0_1_wf : ScatterDims.WF S500x256 S50000x1 S50000x256 [1] [0] [0] 1
  scatter_S500_S50000x1_S50000_n_0_0_1_wf : ScatterDims.WF S500 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S500x256_S50000x1_S50000x256_1_0_0_1 : ScatterDims S500x256 S50000x1 S50000x256 where
  updateWindowDims := [1]
  insertedWindowDims := [0]
  scatterDimsToOperandDims := [0]
  indexVectorDim := 1
  wf := scatter_S500x256_S50000x1_S50000x256_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

class Facts : Prop extends Facts₀ where

variable [Facts]
-- ==== Proof.KernelRun.lean ====
/-
  The idealized kernel's run with its result named.

  The program is five stretches of whole-array operations with four tiled regions among them. From any memory with
  zero counters every weakly fair execution terminates, nothing faulting; the final memory holds, at every buffer
  that outlives the regions, the contents obtained by folding the stretches and the regions' write-backs over the
  launch memory (the fold's last stage is W9). So the result buffer ends at W9's value there, and each argument
  array ends as launched.
-/
import proofs.«152488_j19490561589476_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last stage of the fold through the
    program, and the seven argument arrays as launched. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.Gcn.KernelRun

end
-- ==== Proof.RegionSpec.lean ====
/-
  What the four tiled regions compute, as functions of whole arrays.

  A product region multiplies a 50000-row matrix, 5000 rows at a time, by a weight matrix held whole: entry (r, c) of
  the result is the sum over k of X (r, k) · W (k, c), a row of the result depending on that row of X only.
  An epilogue region takes a 50000 × 256 matrix S, a 50000 × 1 column d and a 1 × 256 row b, 5000 rows at a time:
  entry (r, c) of the result is max (S (r, c) · d (r, 0) + b (0, c), 0).
-/
import Idealize.ShloMosaic.Lib.ValueIdx
import Idealize.ShloMosaic.PureOps.Ideal

noncomputable section

namespace Cert.Gcn

open Idealize.ShloMosaic Idealize.ShloMosaic.ValueIdx

/-- Entry (r, c) of the product of a 50000 × K matrix with a K × 256 matrix on the extended reals. -/
def matmulSpec {K : ℕ} (X : (⟨2, ![50000, K]⟩ : Shape).Idx → EReal) (W : (⟨2, ![K, 256]⟩ : Shape).Idx → EReal) :
    (⟨2, ![50000, 256]⟩ : Shape).Idx → EReal :=
  fun i => ∑ k : Fin K, X (ix2 (⟨(i 0).val, (i 0).isLt⟩ : Fin 50000) k) * W (ix2 k (⟨(i 1).val, (i 1).isLt⟩ : Fin 256))

theorem matmulSpec_apply {K : ℕ} (X : (⟨2, ![50000, K]⟩ : Shape).Idx → EReal) (W : (⟨2, ![K, 256]⟩ : Shape).Idx → EReal)
    (r : Fin 50000) (c : Fin 256) : matmulSpec X W (ix2 r c) = ∑ k : Fin K, X (ix2 r k) * W (ix2 k c) := rfl

/-- Entry (r, c) of the epilogue: the sum S scaled by the row's factor d, the bias b of the column added, negative
    values replaced by zero. -/
def epiSpec (S : (⟨2, ![50000, 256]⟩ : Shape).Idx → EReal) (d : (⟨2, ![50000, 1]⟩ : Shape).Idx → EReal)
    (b : (⟨2, ![1, 256]⟩ : Shape).Idx → EReal) : (⟨2, ![50000, 256]⟩ : Shape).Idx → EReal :=
  fun i => max (S i * d (ix2 (⟨(i 0).val, (i 0).isLt⟩ : Fin 50000) (0 : Fin 1))
    + b (ix2 (0 : Fin 1) (⟨(i 1).val, (i 1).isLt⟩ : Fin 256))) 0

theorem epiSpec_apply (S : (⟨2, ![50000, 256]⟩ : Shape).Idx → EReal) (d : (⟨2, ![50000, 1]⟩ : Shape).Idx → EReal)
    (b : (⟨2, ![1, 256]⟩ : Shape).Idx → EReal) (r : Fin 50000) (c : Fin 256) :
    epiSpec S d b (ix2 r c) = max (S (ix2 r c) * d (ix2 r (0 : Fin 1)) + b (ix2 (0 : Fin 1) c)) 0 := rfl

end Cert.Gcn

end
-- ==== Proof.LibRowGatherScatter.lean ====
/-
  Rows taken and rows added, read at coordinates.

  `x[idx]` of a flat array `[N]` and of a matrix `[N, D]` at a column `[M, 1]` of integer row numbers (a gather that
  collapses axis 0): element `e` (row `e`) of the result is the operand's element (row) whose number is the word
  `idx[e, 0]` read signed and clamped into `[0, N − 1]`.
  A scatter-add of `M` rows of width `D` into the rows of an `[N, D]` array at row numbers `idx : [M, 1]`: update
  element `(e, d')` lands on `(n, d)` only if the word `idx[e, 0]`, read signed and NOT clamped, is `n`, and `d' = d`.
  Hence: on a row that an update lands on, taking row `idx[e, 0]` (after the usual "add N to a negative number"
  normalisation) of any array gives row `n` of it.
  All at any extents; the dimension numbers' conditions are a hypothesis, decided on a program's literal shapes.
-/
import Idealize.ShloMosaic.Lib.ValueIdx
import Idealize.ShloMosaic.PureOps.ShapeOps

noncomputable section

open Idealize.ShloMosaic Idealize.ShloMosaic.ValueIdx

namespace Cert.Lib.RowGatherScatter

variable {α : Type}

/-! ## Taking elements of a flat array -/

/-- The dimension numbers of `x[idx]` for `x : [N]`, `idx : [M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Element `e` of `x[idx]` is `x` at the word `idx[e, 0]` read signed and clamped into `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0 + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Taking rows of a matrix -/

/-- The dimension numbers of `x[idx]` for `x : [N, D]`, `idx : [M, 1]`, result `[M, D]`. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, d)` of `x[idx]` is `x` at row `idx[e, 0]` (read signed, clamped into `[0, N − 1]`), column `d`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (rowDims N D M wf) x idx (ix2 e d)
      = x (ix2 ⟨min (idx (ix2 e (0 : Fin 1))).toInt.toNat (N - 1), by omega⟩ d) := by
  unfold Host.gather
  congr 1
  funext a
  refine Fin.ext ?_
  match a with
  | ⟨0, _⟩ =>
    show (rowDims N D M wf).start (ix2 e d) idx 0 + (rowDims N D M wf).batchCoord (ix2 e d) 0
      + (rowDims N D M wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e d) ⟨List.idxOf (0 : Fin 2) (rowDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D M wf).start (ix2 e d) idx 1 + (rowDims N D M wf).batchCoord (ix2 e d) 1
      + (rowDims N D M wf).offCoord (ix2 e d) 1 = d.val
    have h1 : (rowDims N D M wf).start (ix2 e d) idx 1 = 0 := by
      unfold GatherDims.start; exact dif_neg (show (1 : Fin 2) ∉ ([0] : List (Fin 2)) from by decide)
    have h3 : (rowDims N D M wf).offCoord (ix2 e d) 1 = d.val := rfl
    rw [h1, GatherDims.batchCoord_eq_zero _ _ _ List.not_mem_nil, h3]
    omega

/-! ## Adding rows into a matrix -/

/-- The dimension numbers of `x.at[idx].add(u)` (a row-wise segment sum) for `x : [N, D]`, `idx : [M, 1]`, `u : [M, D]`. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- An update entry `(e, d')` lands on `(n, d)` only if the row number `idx[e, 0]`, read signed, is `n`, and `d' = d`. -/
theorem scatter_rows_hit {N D M w : Nat} (wf : ScatterDims.WF ⟨2, ![N, D]⟩ ⟨2, ![M, 1]⟩ ⟨2, ![M, D]⟩ [1] [0] [0] 1)
    (idx : IVec ⟨2, ![M, 1]⟩ w) (e : Fin M) (d' : Fin D) (n : Fin N) (d : Fin D)
    (h : (rowAddDims N D M wf).resultIdx? (ix2 e d') idx = some (ix2 n d)) :
    (idx (ix2 e (0 : Fin 1))).toInt = (n.val : Int) ∧ d' = d := by
  unfold ScatterDims.resultIdx? at h
  split at h
  · rename_i hin
    have hf := Option.some.inj h
    have h0 : ((rowAddDims N D M wf).start (ix2 e d') idx 0 + ((rowAddDims N D M wf).window (ix2 e d') 0 : Int)).toNat = n.val :=
      congrArg (fun f => (f 0).val) hf
    have h1 : ((rowAddDims N D M wf).start (ix2 e d') idx 1 + ((rowAddDims N D M wf).window (ix2 e d') 1 : Int)).toNat = d.val :=
      congrArg (fun f => (f 1).val) hf
    have g0 := (hin 0).1
    have hs0 : (rowAddDims N D M wf).start (ix2 e d') idx 0 = (idx (ix2 e (0 : Fin 1))).toInt := by
      unfold ScatterDims.start
      rw [dif_pos (show (0 : Fin 2) ∈ (rowAddDims N D M wf).scatterDimsToOperandDims from List.mem_singleton.mpr rfl)]
      have hsi : (rowAddDims N D M wf).siIdx (ix2 e d') ⟨List.idxOf (0 : Fin 2) (rowAddDims N D M wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowAddDims N D M wf).window (ix2 e d') 0 = 0 := rfl
    have hs1 : (rowAddDims N D M wf).start (ix2 e d') idx 1 = 0 := by
      unfold ScatterDims.start; exact dif_neg (show (1 : Fin 2) ∉ ([0] : List (Fin 2)) from by decide)
    have hw1 : (rowAddDims N D M wf).window (ix2 e d') 1 = d'.val := rfl
    rw [hs0, hw0] at h0 g0
    rw [hs1, hw1] at h1
    refine ⟨by omega, Fin.ext (by omega)⟩
  · exact absurd h (by simp)

/-! ## A row number that a scatter accepts is taken unchanged by a gather -/

/-- A 32-bit row number that reads signed as `n < N` (so it is not negative) is left alone by the normalisation
    "if negative add `N`", and the gather's clamp gives `n`. -/
theorem normalised_row {N : Nat} (c : BitVec 32) (Nw : BitVec 32) (n : Fin N) (hc : c.toInt = (n.val : Int)) :
    min (Scalar.select (IntOp.cmpi .slt c 0#32) (IntOp.addi c Nw) c).toInt.toNat (N - 1) = n.val := by
  have hslt : IntOp.cmpi .slt c 0#32 = 0#1 := by
    have : c.slt 0#32 = false := by
      rw [BitVec.slt_eq_decide]
      simp only [BitVec.toInt_zero, decide_eq_false_iff_not, not_lt]
      omega
    simp [IntOp.cmpi, this]
  rw [hslt, select_zero, hc]
  have := n.isLt
  omega

end Cert.Lib.RowGatherScatter

end
-- ==== Proof.LibSegmentSum.lean ====
/-
  A segment sum read as a sum over the edges that end at a node.

  A scatter-add of `M` update rows of width `D` into an `[N, D]` array of zeros at row numbers `idx : [M, 1]` (jax's
  `segment_sum` of rows), and a scatter-add of `M` numbers into a flat `[N]` array of zeros at the same row numbers
  (`segment_sum` of a vector). An update lands on a cell exactly when its result coordinates — start (the row number
  read signed, not clamped) plus window coordinate, axis by axis — are the cell's (`resultIdx?_eq_some_iff`, any
  dimension numbers). For the row-wise scatter that is: the row number of update row `e` is `n` and the column is kept
  (`rows_land_iff`); for the flat one: the row number of `e` is `n` (`flat_land_iff`). So on the extended reals both
  are sums over the SAME finite set of update rows, `{e | idx[e, 0] = n}`:
    `rows_scatterAdd_apply`:  result (n, d) = Σ_{e : idx[e,0] = n} u (e, d)
    `flat_scatterAdd_apply`:  result n      = Σ_{e : idx[e,0] = n} u e
  All at any extents.
-/
import Idealize.ShloMosaic.Lib.ValueIdx
import Idealize.ShloMosaic.PureOps.ShapeOps
import Idealize.ShloMosaic.PureOps.Ideal
import proofs.«152488_j19490561589476_2_alg».proof.Proof.LibRowGatherScatter

noncomputable section

open Idealize.ShloMosaic Idealize.ShloMosaic.ValueIdx

namespace Cert.Lib.SegmentSum

open Cert.Lib.RowGatherScatter

/-- An update index lands on the cell `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hin
      have hf := Option.some.inj h
      intro a
      have h1 : (d.start j idx a + (d.window j a : Int)).toNat = (i a).val := congrArg (fun f => (f a).val) hf
      have h2 := (hin a).1
      omega
    · exact absurd h (by simp)
  · intro h
    have hin : ∀ a, 0 ≤ d.start j idx a + d.window j a ∧ d.start j idx a + d.window j a < s.size a := fun a => by
      have h1 := h a
      have h2 := (i a).isLt
      omega
    rw [dif_pos hin]
    refine congrArg some (funext fun a => Fin.ext ?_)
    show (d.start j idx a + (d.window j a : Int)).toNat = (i a).val
    have h1 := h a
    omega

/-! ## Rows added into a matrix -/

section Rows

variable {N D M w : Nat} (wf : ScatterDims.WF ⟨2, ![N, D]⟩ ⟨2, ![M, 1]⟩ ⟨2, ![M, D]⟩ [1] [0] [0] 1)

theorem rows_start0 (idx : IVec ⟨2, ![M, 1]⟩ w) (e : Fin M) (d' : Fin D) :
    (rowAddDims N D M wf).start (ix2 e d') idx 0 = (idx (ix2 e (0 : Fin 1))).toInt := by
  unfold ScatterDims.start
  rw [dif_pos (show (0 : Fin 2) ∈ (rowAddDims N D M wf).scatterDimsToOperandDims from List.mem_singleton.mpr rfl)]
  have hsi : (rowAddDims N D M wf).siIdx (ix2 e d') ⟨List.idxOf (0 : Fin 2) (rowAddDims N D M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rows_start1 (idx : IVec ⟨2, ![M, 1]⟩ w) (e : Fin M) (d' : Fin D) :
    (rowAddDims N D M wf).start (ix2 e d') idx 1 = 0 := by
  unfold ScatterDims.start; exact dif_neg (show (1 : Fin 2) ∉ ([0] : List (Fin 2)) from by decide)

theorem rows_window0 (e : Fin M) (d' : Fin D) : (rowAddDims N D M wf).window (ix2 e d') 0 = 0 := rfl
theorem rows_window1 (e : Fin M) (d' : Fin D) : (rowAddDims N D M wf).window (ix2 e d') 1 = d'.val := rfl

/-- Update entry `(e, d')` lands on `(n, d)` exactly when row number `idx[e, 0]`, read signed, is `n`, and `d' = d`. -/
theorem rows_land_iff (idx : IVec ⟨2, ![M, 1]⟩ w) (e : Fin M) (d' : Fin D) (n : Fin N) (d : Fin D) :
    (rowAddDims N D M wf).resultIdx? (ix2 e d') idx = some (ix2 n d)
      ↔ (idx (ix2 e (0 : Fin 1))).toInt = (n.val : Int) ∧ d' = d := by
  rw [resultIdx?_eq_some_iff]
  constructor
  · intro h
    have h0 := h 0
    have h1 := h 1
    rw [rows_start0, rows_window0] at h0
    rw [rows_start1, rows_window1] at h1
    have e0 : ((ix2 n d : (⟨2, ![N, D]⟩ : Shape).Idx) 0).val = n.val := rfl
    have e1 : ((ix2 n d : (⟨2, ![N, D]⟩ : Shape).Idx) 1).val = d.val := rfl
    rw [e0] at h0
    rw [e1] at h1
    exact ⟨by omega, Fin.ext (by omega)⟩
  · rintro ⟨h0, rfl⟩ a
    match a with
    | ⟨0, _⟩ =>
      show (rowAddDims N D M wf).start (ix2 e d') idx 0 + ((rowAddDims N D M wf).window (ix2 e d') 0 : Int) = (n.val : Int)
      rw [rows_start0, rows_window0, h0]; simp
    | ⟨1, _⟩ =>
      show (rowAddDims N D M wf).start (ix2 e d') idx 1 + ((rowAddDims N D M wf).window (ix2 e d') 1 : Int) = (d'.val : Int)
      rw [rows_start1, rows_window1]; simp

/-- Rows scatter-added into zeros: entry `(n, d)` is the sum of `u (e, d)` over the update rows `e` whose row number is `n`. -/
theorem rows_scatterAdd_apply (z : (⟨2, ![N, D]⟩ : Shape).Idx → EReal) (hz : ∀ i, z i = 0) (idx : IVec ⟨2, ![M, 1]⟩ w)
    (u : (⟨2, ![M, D]⟩ : Shape).Idx → EReal) (n : Fin N) (d : Fin D) :
    Ideal.hostScatterAdd (rowAddDims N D M wf) z idx u (ix2 n d)
      = ∑ e ∈ Finset.univ.filter (fun e : Fin M => (idx (ix2 e (0 : Fin 1))).toInt = (n.val : Int)), u (ix2 e d) := by
  unfold Ideal.hostScatterAdd
  rw [hz, zero_add]
  refine Finset.sum_bij' (fun j _ => (j 0 : Fin M)) (fun e _ => (ix2 e d : (⟨2, ![M, D]⟩ : Shape).Idx)) ?_ ?_ ?_ ?_ ?_
  · intro j hj
    have hj' := (Finset.mem_filter.mp hj).2
    rw [eq_ix2 j] at hj'
    exact Finset.mem_filter.mpr ⟨Finset.mem_univ _, ((rows_land_iff wf idx _ _ n d).mp hj').1⟩
  · intro e he
    exact Finset.mem_filter.mpr ⟨Finset.mem_univ _, (rows_land_iff wf idx e d n d).mpr ⟨(Finset.mem_filter.mp he).2, rfl⟩⟩
  · intro j hj
    have hj' := (Finset.mem_filter.mp hj).2
    rw [eq_ix2 j] at hj'
    have hd := ((rows_land_iff wf idx _ _ n d).mp hj').2
    show ix2 (j 0) d = j
    rw [← hd]; exact (eq_ix2 j).symm
  · intro e he
    rfl
  · intro j hj
    have hj' := (Finset.mem_filter.mp hj).2
    rw [eq_ix2 j] at hj'
    have hd := ((rows_land_iff wf idx _ _ n d).mp hj').2
    show u j = u (ix2 (j 0) d)
    rw [← hd]; exact congrArg u (eq_ix2 j)

end Rows

/-! ## Numbers added into a flat array -/

section Flat

/-- The dimension numbers of `x.at[idx].add(u)` for `x : [N]`, `idx : [M, 1]`, `u : [M]` (a segment sum of a vector). -/
abbrev flatAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

theorem flat_start0 (idx : IVec ⟨2, ![M, 1]⟩ w) (e : Fin M) :
    (flatAddDims N M wf).start (ix1 e) idx 0 = (idx (ix2 e (0 : Fin 1))).toInt := by
  unfold ScatterDims.start
  rw [dif_pos (show (0 : Fin 1) ∈ (flatAddDims N M wf).scatterDimsToOperandDims from List.mem_singleton.mpr rfl)]
  have hsi : (flatAddDims N M wf).siIdx (ix1 e) ⟨List.idxOf (0 : Fin 1) (flatAddDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flat_window0 (e : Fin M) : (flatAddDims N M wf).window (ix1 e) 0 = 0 := rfl

/-- Update `e` lands on element `n` exactly when its row number `idx[e, 0]`, read signed, is `n`. -/
theorem flat_land_iff (idx : IVec ⟨2, ![M, 1]⟩ w) (e : Fin M) (n : Fin N) :
    (flatAddDims N M wf).resultIdx? (ix1 e) idx = some (ix1 n) ↔ (idx (ix2 e (0 : Fin 1))).toInt = (n.val : Int) := by
  rw [resultIdx?_eq_some_iff]
  constructor
  · intro h
    have h0 := h 0
    rw [flat_start0, flat_window0] at h0
    have e0 : ((ix1 n : (⟨1, ![N]⟩ : Shape).Idx) 0).val = n.val := rfl
    rw [e0] at h0
    omega
  · intro h0 a
    obtain rfl : a = 0 := Subsingleton.elim _ _
    show (flatAddDims N M wf).start (ix1 e) idx 0 + ((flatAddDims N M wf).window (ix1 e) 0 : Int) = (n.val : Int)
    rw [flat_start0, flat_window0, h0]; simp

/-- Numbers scatter-added into zeros: element `n` is the sum of `u e` over the updates `e` whose row number is `n`. -/
theorem flat_scatterAdd_apply (z : (⟨1, ![N]⟩ : Shape).Idx → EReal) (hz : ∀ i, z i = 0) (idx : IVec ⟨2, ![M, 1]⟩ w)
    (u : (⟨1, ![M]⟩ : Shape).Idx → EReal) (n : Fin N) :
    Ideal.hostScatterAdd (flatAddDims N M wf) z idx u (ix1 n)
      = ∑ e ∈ Finset.univ.filter (fun e : Fin M => (idx (ix2 e (0 : Fin 1))).toInt = (n.val : Int)), u (ix1 e) := by
  unfold Ideal.hostScatterAdd
  rw [hz, zero_add]
  refine Finset.sum_bij' (fun j _ => (j 0 : Fin M)) (fun e _ => (ix1 e : (⟨1, ![M]⟩ : Shape).Idx)) ?_ ?_ ?_ ?_ ?_
  · intro j hj
    have hj' := (Finset.mem_filter.mp hj).2
    rw [eq_ix1 j] at hj'
    exact Finset.mem_filter.mpr ⟨Finset.mem_univ _, (flat_land_iff wf idx _ n).mp hj'⟩
  · intro e he
    exact Finset.mem_filter.mpr ⟨Finset.mem_univ _, (flat_land_iff wf idx e n).mpr (Finset.mem_filter.mp he).2⟩
  · intro j hj
    exact (eq_ix1 j).symm
  · intro e he
    rfl
  · intro j hj
    exact congrArg u (eq_ix1 j)

end Flat

end Cert.Lib.SegmentSum

end
-- ==== Proof.LayerSpec.lean ====
/-
  The graph network of this certificate as functions of whole arrays on the extended reals.

  There are N = 50000 nodes, E = 850000 edges (800000 given ones followed by one loop per node), D = 256 channels and
  G = 500 graphs. An edge e has a source row number src e and a target row number dst e, 32-bit words. A row
  number is USED in two ways: a scatter-add lets update e land on row n exactly when dst e, read signed, is n
  (otherwise the update is dropped); a gather first adds N to a negative row number and then clamps into [0, N − 1].
  deg n counts the edges landing on n, and dis n = deg n ^ (−1/2) where deg n > 0, else 0.

  One layer maps a matrix X (already multiplied by the layer's weights) and a bias b to

      out (n, c) = max (Σ_{e lands on n} X (src e, c) · dis (src e) · dis (dst e) + b c, 0).

  layerR is that formula as written: the product of the two factors is formed per edge (edgeNorm), multiplied onto
  the gathered rows, summed per target, the bias added. layerK is the other arrangement: X is scaled by dis row by
  row BEFORE the rows are gathered, the gathered rows are summed per target, and the sum of row n is scaled by dis n
  afterwards, together with the bias and the maximum (epiSpec). The two agree because on an edge that lands on n the
  factor dis (dst e) is dis n, a non-negative number below +∞, and such a factor may be taken out of a sum on the
  extended reals.

  pool is the mean over the nodes of each graph: the per-graph sum of rows divided by max (count, 1).
-/
import Idealize.ShloMosaic.Lib.ValueIdx
import Idealize.ShloMosaic.Lib.Pipeline.Value
import Idealize.ShloMosaic.PureOps.Ideal
import Idealize.ShloMosaic.PureOps.Contract
import proofs.«152488_j19490561589476_2_alg».proof.Proof.RegionSpec
import proofs.«152488_j19490561589476_2_alg».proof.Proof.LibRowGatherScatter
import proofs.«152488_j19490561589476_2_alg».proof.Proof.LibSegmentSum

noncomputable section

namespace Cert.Gcn

open Idealize.ShloMosaic Idealize.ShloMosaic.ValueIdx Cert.Lib.RowGatherScatter Cert.Lib.SegmentSum

/-! ## Shapes -/

abbrev Sh0 : Shape := ⟨0, ![]⟩
abbrev ShN : Shape := ⟨1, ![50000]⟩
abbrev ShN1 : Shape := ⟨2, ![50000, 1]⟩
abbrev ShE : Shape := ⟨1, ![850000]⟩
abbrev ShE1 : Shape := ⟨2, ![850000, 1]⟩
abbrev ShD : Shape := ⟨1, ![256]⟩
abbrev Sh1D : Shape := ⟨2, ![1, 256]⟩
abbrev ShND : Shape := ⟨2, ![50000, 256]⟩
abbrev ShED : Shape := ⟨2, ![850000, 256]⟩
abbrev ShG : Shape := ⟨1, ![500]⟩
abbrev ShG1 : Shape := ⟨2, ![500, 1]⟩
abbrev ShGD : Shape := ⟨2, ![500, 256]⟩

/-! ## The dimension numbers of the row gathers and row scatter-adds -/

theorem rowsAdd_wf : ScatterDims.WF ShND ShE1 ShED [1] [0] [0] 1 := by decide
theorem rowsTake_wf : GatherDims.WF ShND ShE1 ShED [1] [0] [] [0] [] 1 ![1, 256] := by decide
theorem flatTake_wf : GatherDims.WF ShN ShE1 ShE [] [0] [] [0] [] 1 ![1] := by decide
theorem degAdd_wf : ScatterDims.WF ShN ShE1 ShE [] [0] [0] 1 := by decide
theorem poolAdd_wf : ScatterDims.WF ShGD ShN1 ShND [1] [0] [0] 1 := by decide
theorem cntAdd_wf : ScatterDims.WF ShG ShN1 ShN [] [0] [0] 1 := by decide

/-- Rows of an [E, D] matrix added into an [N, D] matrix at an [E, 1] column of row numbers. -/
abbrev rowsAdd : ScatterDims ShND ShE1 ShED := rowAddDims 50000 256 850000 rowsAdd_wf
/-- Rows of an [N, D] matrix taken at an [E, 1] column of row numbers. -/
abbrev rowsTake : GatherDims ShND ShE1 ShED := rowDims 50000 256 850000 rowsTake_wf
/-- Entries of an [N] array taken at an [E, 1] column of row numbers. -/
abbrev flatTake : GatherDims ShN ShE1 ShE := flatDims 50000 850000 flatTake_wf
/-- Numbers of an [E] array added into an [N] array at an [E, 1] column of row numbers. -/
abbrev degAdd : ScatterDims ShN ShE1 ShE := flatAddDims 50000 850000 degAdd_wf
/-- Rows of an [N, D] matrix added into a [G, D] matrix at an [N, 1] column of graph numbers. -/
abbrev poolAdd : ScatterDims ShGD ShN1 ShND := rowAddDims 500 256 50000 poolAdd_wf
/-- Numbers of an [N] array added into a [G] array at an [N, 1] column of graph numbers. -/
abbrev cntAdd : ScatterDims ShG ShN1 ShN := flatAddDims 500 50000 cntAdd_wf

/-! ## Small pieces -/

/-- A row number with "add N when negative" applied (what a gather does before it clamps). -/
def normRows (v : IVec ShE 32) : IVec ShE 32 :=
  select (cmpi .slt v (broadcastInDim ShE ![] (by decide) (constantI Sh0 32 0#32)))
    (addi v (broadcastInDim ShE ![] (by decide) (constantI Sh0 32 50000#32))) v

/-- The E row numbers as an [E, 1] column. -/
def asCol (v : IVec ShE 32) : IVec ShE1 32 := broadcastInDim ShE1 ![0] (by decide) v

/-- The [N, D] matrix of zeros. -/
def zerosND : FVec Ideal ShND .f32 := broadcastInDim ShND ![] (by decide) (constant (F := Ideal) Sh0 .f32 0x00000000#32)

/-- A per-node number repeated along the D channels of its row. -/
def perRow (d : FVec Ideal ShN .f32) : FVec Ideal ShND .f32 :=
  broadcastInDim ShND ![0, 1] (by decide) (broadcastInDim ShN1 ![0] (by decide) d)

/-- A per-edge number repeated along the D channels of its row. -/
def perEdge (w : FVec Ideal ShE .f32) : FVec Ideal ShED .f32 :=
  broadcastInDim ShED ![0, 1] (by decide) (broadcastInDim ShE1 ![0] (by decide) w)

/-- A per-channel number repeated along the N rows. -/
def perCol (b : FVec Ideal ShD .f32) : FVec Ideal ShND .f32 :=
  broadcastInDim ShND ![0, 1] (by decide) (broadcastInDim Sh1D ![1] (by decide) b)

/-! ## Degrees and their inverse square roots -/

/-- deg n: the number of edges landing on node n, as a sum of ones. -/
def degOf (dst : IVec ShE 32) : FVec Ideal ShN .f32 :=
  Host.scatterAdd degAdd (broadcastInDim ShN ![] (by decide) (constant (F := Ideal) Sh0 .f32 0x00000000#32)) (asCol dst)
    (broadcastInDim ShE ![] (by decide) (constant (F := Ideal) Sh0 .f32 0x3F800000#32))

/-- dis n = deg n ^ (−1/2) where deg n > 0, else 0. -/
def disOf (deg : FVec Ideal ShN .f32) : FVec Ideal ShN .f32 :=
  select (cmpf .ogt deg (broadcastInDim ShN ![] (by decide) (constant (F := Ideal) Sh0 .f32 0x00000000#32))) (Host.rsqrt deg)
    (broadcastInDim ShN ![] (by decide) (constant (F := Ideal) Sh0 .f32 0x00000000#32))

/-! ## One layer, arranged two ways -/

/-- The per-target sums of the gathered rows of X scaled row by row by dis. -/
def summedK (dis : FVec Ideal ShN .f32) (src dst : IVec ShE 32) (X : FVec Ideal ShND .f32) : FVec Ideal ShND .f32 :=
  Host.scatterAdd rowsAdd zerosND (asCol dst) (Host.gather rowsTake (mulf X (perRow dis)) (asCol (normRows src)))

/-- The layer with the target's factor applied after the sum. -/
def layerK (dis : FVec Ideal ShN .f32) (src dst : IVec ShE 32) (X : FVec Ideal ShND .f32) (b : FVec Ideal ShD .f32) :
    FVec Ideal ShND .f32 :=
  epiSpec (summedK dis src dst X) (shapeCast ShN1 dis (by decide)) (shapeCast Sh1D b (by decide))

/-- The per-edge factor dis (src e) · dis (dst e). -/
def edgeNorm (dis : FVec Ideal ShN .f32) (src dst : IVec ShE 32) : FVec Ideal ShE .f32 :=
  mulf (Host.gather flatTake dis (asCol (normRows src))) (Host.gather flatTake dis (asCol (normRows dst)))

/-- The layer with both factors applied per edge before the sum. -/
def layerR (dis : FVec Ideal ShN .f32) (src dst : IVec ShE 32) (X : FVec Ideal ShND .f32) (b : FVec Ideal ShD .f32) :
    FVec Ideal ShND .f32 :=
  maximumf (addf (Host.scatterAdd rowsAdd zerosND (asCol dst)
      (mulf (Host.gather rowsTake X (asCol (normRows src))) (perEdge (edgeNorm dis src dst)))) (perCol b)) zerosND

/-! ## The mean over each graph -/

/-- Per graph: the sum of its nodes' rows divided by max (number of its nodes, 1). -/
def pool (h : FVec Ideal ShND .f32) (batch : IVec ShN 32) : FVec Ideal ShGD .f32 :=
  Host.divf
    (Host.scatterAdd poolAdd (broadcastInDim ShGD ![] (by decide) (constant (F := Ideal) Sh0 .f32 0x00000000#32))
      (broadcastInDim ShN1 ![0] (by decide) batch) h)
    (broadcastInDim ShGD ![0, 1] (by decide) (broadcastInDim ShG1 ![0] (by decide)
      (maximumf
        (Host.scatterAdd cntAdd (broadcastInDim ShG ![] (by decide) (constant (F := Ideal) Sh0 .f32 0x00000000#32))
          (broadcastInDim ShN1 ![0] (by decide) batch)
          (broadcastInDim ShN ![] (by decide) (constant (F := Ideal) Sh0 .f32 0x3F800000#32)))
        (broadcastInDim ShG ![] (by decide) (constant (F := Ideal) Sh0 .f32 0x3F800000#32)))))

end Cert.Gcn

end
-- ==== Proof.NetSpec.lean ====
/-
  The whole network, arranged two ways.

  The edges: row 0 of the [2, 800000] edge table gives the sources and row 1 the targets of the given edges; one loop
  per node (source = target = the node's number) is appended to each. With deg, dis, the two arrangements of a layer
  and the per-graph mean of LayerSpec:

      net (layer) = pool (layer (layer (x · W1) b1 · W2) b2).
-/
import proofs.«152488_j19490561589476_2_alg».proof.Proof.LayerSpec

noncomputable section

namespace Cert.Gcn

open Idealize.ShloMosaic Idealize.ShloMosaic.ValueIdx

abbrev ShEI : Shape := ⟨2, ![2, 800000]⟩
abbrev Sh1E0 : Shape := ⟨2, ![1, 800000]⟩
abbrev ShE0 : Shape := ⟨1, ![800000]⟩
abbrev ShX : Shape := ⟨2, ![50000, 128]⟩
abbrev ShW1 : Shape := ⟨2, ![128, 256]⟩
abbrev ShW2 : Shape := ⟨2, ![256, 256]⟩

/-- The given edges' row numbers followed by the nodes' own numbers fill the E places. -/
theorem edges_join : Shape.Concatenates [ShE0, ShN] ShE 0 := by decide
theorem edgeRow0_slices : ShEI.Slices ![0, 0] Sh1E0 := by decide
theorem edgeRow1_slices : ShEI.Slices ![1, 0] Sh1E0 := by decide
theorem edgeRow_flat : Sh1E0.ShapeCasts ShE0 := by decide

/-- The source row numbers: row 0 of the edge table, then the nodes' own numbers. -/
def srcOf (ei : IVec ShEI 32) : IVec ShE 32 :=
  concatenate ShE 0 [⟨ShE0, shapeCast ShE0 (extractStridedSlice Sh1E0 ![0, 0] ei edgeRow0_slices) edgeRow_flat⟩,
    ⟨ShN, iotaInDim ShN 32 0⟩] edges_join

/-- The target row numbers: row 1 of the edge table, then the nodes' own numbers. -/
def dstOf (ei : IVec ShEI 32) : IVec ShE 32 :=
  concatenate ShE 0 [⟨ShE0, shapeCast ShE0 (extractStridedSlice Sh1E0 ![1, 0] ei edgeRow1_slices) edgeRow_flat⟩,
    ⟨ShN, iotaInDim ShN 32 0⟩] edges_join

/-- The network with the layers in the "scale, gather, sum, scale" arrangement and the products read entry by entry. -/
def netK (x : FVec Ideal ShX .f32) (W1 : FVec Ideal ShW1 .f32) (b1 : FVec Ideal ShD .f32) (W2 : FVec Ideal ShW2 .f32)
    (b2 : FVec Ideal ShD .f32) (ei : IVec ShEI 32) (batch : IVec ShN 32) : FVec Ideal ShGD .f32 :=
  pool (layerK (disOf (degOf (dstOf ei))) (srcOf ei) (dstOf ei)
    (matmulSpec (layerK (disOf (degOf (dstOf ei))) (srcOf ei) (dstOf ei) (matmulSpec x W1) b1) W2) b2) batch

/-- The network with the layers in the "gather, weigh per edge, sum" arrangement and whole-array products. -/
def netR (x : FVec Ideal ShX .f32) (W1 : FVec Ideal ShW1 .f32) (b1 : FVec Ideal ShD .f32) (W2 : FVec Ideal ShW2 .f32)
    (b2 : FVec Ideal ShD .f32) (ei : IVec ShEI 32) (batch : IVec ShN 32) : FVec Ideal ShGD .f32 :=
  pool (layerR (disOf (degOf (dstOf ei))) (srcOf ei) (dstOf ei)
    (Host.dotGeneral (DotDims.plain 50000 256 256) none
      (layerR (disOf (degOf (dstOf ei))) (srcOf ei) (dstOf ei) (Host.dotGeneral (DotDims.plain 50000 128 256) none x W1) b1)
      W2) b2) batch

end Cert.Gcn

end
-- ==== Proof.RegionMatmul0.lean ====
/-
  The first product region as one function of whole arrays: the 50000 × 256 array it leaves is, entry by entry,
  the sum over k of X (r, k) · W (k, c) of the two arrays it finds. Each grid point t handles rows
  5000 t … 5000 t + 4999 of X against the whole of W: its body's result is read at an index as the contraction's
  sum, each loaded block is read where the window's rectangle says, and the ten blocks cover the array.
-/
import proofs.«152488_j19490561589476_2_alg».proof.Proof.Gen.KernelIdeal.Frame
import proofs.«152488_j19490561589476_2_alg».proof.Proof.RegionSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.Gcn

open Cert.KernelIdeal Cert.KernelIdeal.Gen

/-- The zero offsets of a whole-block access, as a constant function. -/
theorem zeroOffsets0 : (![0, 0] : Fin 2 → Nat) = fun _ => 0 := funext fun a => by fin_cases a <;> rfl

/-- The left operand's index of the product at output (p, q) and contraction index k is (p, k) … -/
theorem productLhs0_0 (i : S5000x256.Idx) (κ : dot_S5000x128_S128x256_S5000x256_1_0_0_1_n_n.contr.Idx) :
    (dot_S5000x128_S128x256_S5000x256_1_0_0_1_n_n.lhsIdx i κ 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem productLhs0_1 (i : S5000x256.Idx) (κ : dot_S5000x128_S128x256_S5000x256_1_0_0_1_n_n.contr.Idx) :
    (dot_S5000x128_S128x256_S5000x256_1_0_0_1_n_n.lhsIdx i κ 1).val = (κ ⟨0, by decide⟩).val :=
  dot_S5000x128_S128x256_S5000x256_1_0_0_1_n_n.lhsIdx_val_of_single rfl i κ
/-- … and the right operand's is (k, q). -/
theorem productRhs0_0 (i : S5000x256.Idx) (κ : dot_S5000x128_S128x256_S5000x256_1_0_0_1_n_n.contr.Idx) :
    (dot_S5000x128_S128x256_S5000x256_1_0_0_1_n_n.rhsIdx i κ 0).val = (κ ⟨0, by decide⟩).val :=
  dot_S5000x128_S128x256_S5000x256_1_0_0_1_n_n.rhsIdx_val_of_single rfl i κ
theorem productRhs0_1 (i : S5000x256.Idx) (κ : dot_S5000x128_S128x256_S5000x256_1_0_0_1_n_n.contr.Idx) :
    (dot_S5000x128_S128x256_S5000x256_1_0_0_1_n_n.rhsIdx i κ 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's result at (p, q): the sum over k of the block of X at (p, k) times W at (k, q). -/
theorem productBody0_apply (x0 : Vec Ideal S5000x128 .f32) (x1 : Vec Ideal S128x256 .f32) (p : Fin 5000) (q : Fin 256) :
    k0_pay1 x0 x1 (ix2 p q) = ∑ κ : Fin 128, x0 (ix2 p κ) * x1 (ix2 κ q) := by
  unfold k0_pay1
  simp only [matmul]
  rw [Ideal.matmul_constant_zero_apply, ← Equiv.sum_comp (contrEquiv1 dot_S5000x128_S128x256_S5000x256_1_0_0_1_n_n 128 rfl rfl).symm]
  refine Finset.sum_congr rfl fun κ _ => ?_
  have hκ := contrEquiv1_symm_val dot_S5000x128_S128x256_S5000x256_1_0_0_1_n_n 128 rfl rfl κ
  have el : dot_S5000x128_S128x256_S5000x256_1_0_0_1_n_n.lhsIdx (ix2 p q) ((contrEquiv1 dot_S5000x128_S128x256_S5000x256_1_0_0_1_n_n 128 rfl rfl).symm κ) = ix2 p κ := funext fun a => Fin.ext (by
    match a with
    | ⟨0, _⟩ => exact productLhs0_0 _ _
    | ⟨1, _⟩ => exact (productLhs0_1 _ _).trans hκ)
  have er : dot_S5000x128_S128x256_S5000x256_1_0_0_1_n_n.rhsIdx (ix2 p q) ((contrEquiv1 dot_S5000x128_S128x256_S5000x256_1_0_0_1_n_n 128 rfl rfl).symm κ) = ix2 κ q := funext fun a => Fin.ext (by
    match a with
    | ⟨0, _⟩ => exact (productRhs0_0 _ _).trans hκ
    | ⟨1, _⟩ => exact productRhs0_1 _ _)
  rw [el, er]

/-- One block of the product: if the loaded blocks are rows n·5000 … n·5000 + 4999 of X and the whole of W, the body's
    result at (p, q) is the product of the arrays at (n·5000 + p, q). -/
theorem productBlock0_apply (X : (⟨2, ![50000, 128]⟩ : Shape).Idx → EReal) (W : (⟨2, ![128, 256]⟩ : Shape).Idx → EReal)
    (x0 : Vec Ideal S5000x128 .f32) (x1 : Vec Ideal S128x256 .f32) (n : ℕ) (hn : n < 10)
    (h0 : ∀ (p : Fin 5000) (κ : Fin 128), x0 (ix2 p κ) = X (ix2 (⟨n * 5000 + p.val, by omega⟩ : Fin 50000) κ))
    (h1 : ∀ (κ : Fin 128) (q : Fin 256), x1 (ix2 κ q) = W (ix2 κ q))
    (j : (⟨2, ![5000, 256]⟩ : Shape).Idx) (i : (⟨2, ![50000, 256]⟩ : Shape).Idx)
    (hi0 : (i 0).val = n * 5000 + (j 0).val) (hi1 : (i 1).val = (j 1).val) :
    k0_pay1 x0 x1 j = matmulSpec (K := 128) X W i := by
  obtain ⟨p, q, rfl⟩ : ∃ (p : Fin 5000) (q : Fin 256), j = ix2 p q := ⟨j 0, j 1, eq_ix2 j⟩
  have hb : n * 5000 + p.val < 50000 := by omega
  obtain ⟨r, s, rfl⟩ : ∃ (r : Fin 50000) (s : Fin 256), i = ix2 r s := ⟨i 0, i 1, eq_ix2 i⟩
  have hr : r = ⟨n * 5000 + p.val, hb⟩ := Fin.ext hi0
  have hs : s = q := Fin.ext hi1
  rw [hr, hs, productBody0_apply, matmulSpec_apply]
  exact Finset.sum_congr rfl fun κ _ => by rw [h0, h1]

variable (V : (c : Dev nD) → (b : Ref sig .tc) → Buf (Elt Ideal) ((c : Thread nD τ).loc b))

/-- The block index of each window at grid point t: X and the result move one block of rows per point; W stays. -/
theorem blockIndex0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0 :=
  (by decide +kernel : ∀ t : Fin grid0.N, _)

/-- What point t writes back is block t of the product of the arrays as the region finds them. -/
theorem flushed0_eq (c : Dev nD) (t : Fin cfg0.N) :
    (dat0 V c).flushed 2 t = ((cfg0.win 2).blk t).view.read (Elt Ideal)
      (matmulSpec (K := 128) (V c main_arg0) (V c main_arg1)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x256) zeroOffsets0]
  obtain ⟨e00, e01, e10, e11, e20, e21⟩ := blockIndex0 t
  have ht : t.val < 10 := lt_of_lt_of_eq t.isLt N_0
  funext j
  show k0_pay1 (iblk0 V c 0 t) (iblk0 V c 1 t) j
    = matmulSpec (K := 128) (V c main_arg0) (V c main_arg1) (((cfg0.win 2).blk t).view.emb j)
  refine productBlock0_apply _ _ _ _ t.val ht (fun p κ => ?_) (fun κ q => ?_) j _ ?_ ?_
  · unfold iblk0
    rw [View.read_apply]
    show V c main_arg0 _ = V c main_arg0 _
    refine congrArg (V c main_arg0) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * κ.val = κ.val; rw [e01]; omega
  · unfold iblk0
    rw [View.read_apply]
    show V c main_arg1 _ = V c main_arg1 _
    refine congrArg (V c main_arg1) (funext fun a => Fin.ext ?_)
    match a with
    | ⟨0, _⟩ => show win0_1.index t (0 : Fin 2) * 128 + 1 * κ.val = κ.val; rw [e10]; omega
    | ⟨1, _⟩ => show win0_1.index t (1 : Fin 2) * 256 + 1 * q.val = q.val; rw [e11]; omega
  · show win0_2.index t (0 : Fin 2) * 5000 + 1 * (j 0).val = t.val * 5000 + (j 0).val
    rw [e20]; omega
  · show win0_2.index t (1 : Fin 2) * 256 + 1 * (j 1).val = (j 1).val
    rw [e21]; omega

/-- An index of the result array is in point t's block iff each coordinate is in the block's range on its axis. -/
theorem mem_block0 (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v15).slice (win0_2.rect t)).set ↔ _
  rw [View.set_slice_whole, Rect.mem_set_unit]
  exact Iff.rfl

/-- Every index of the result array is written back: row r by the point r / 5000. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, e20, e21⟩ := blockIndex0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 256 ≤ (i 1).val ∧ (i 1).val < win0_2.index t (1 : Fin 2) * 256 + 256
    rw [e21]; omega

/-- The array the region leaves: the product of the two arrays it found. -/
theorem region0_final (c : Dev nD) :
    (dat0 V c).arrAt 2 cfg0.N = matmulSpec (K := 128) (V c main_arg0) (V c main_arg1) :=
  (dat0 V c).arrAt_eq_of_cover 2 (matmulSpec (K := 128) (V c main_arg0) (V c main_arg1))
    (fun t _ => flushed0_eq V c t) (covered0)

end Cert.Gcn

end
-- ==== Proof.RegionEpilogue1.lean ====
/-
  The first epilogue region as one function of whole arrays: the 50000 × 256 array it leaves is, entry by entry,
  max (S (r, c) · d (r, 0) + b (0, c), 0) of the three arrays it finds. Each grid point t handles rows
  5000 t … 5000 t + 4999: its body's result is read at an index, each loaded block is read where the window's
  rectangle says, and the ten blocks cover the array.
-/
import proofs.«152488_j19490561589476_2_alg».proof.Proof.Gen.KernelIdeal.Frame
import proofs.«152488_j19490561589476_2_alg».proof.Proof.RegionSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.Gcn

open Cert.KernelIdeal Cert.KernelIdeal.Gen

/-- The zero offsets of a whole-block access, as a constant function. -/
theorem zeroOffsets1 : (![0, 0] : Fin 2 → Nat) = fun _ => 0 := funext fun a => by fin_cases a <;> rfl

/-- The body's result at (p, q): the block of S at (p, q) times the block of d at row p, plus b at column q, and the
    maximum of that with zero. -/
theorem epilogueBody1_apply (x0 : Vec Ideal S5000x256 .f32) (x1 : Vec Ideal S5000x1 .f32) (x2 : Vec Ideal S1x256 .f32)
    (p : Fin 5000) (q : Fin 256) :
    k1_pay1 x0 x1 x2 (ix2 p q) = max (x0 (ix2 p q) * x1 (ix2 p (0 : Fin 1)) + x2 (ix2 (0 : Fin 1) q)) 0 := by
  unfold k1_pay1
  simp only [shapeCast_self]
  rw [maximumf_apply, addf_apply, mulf_apply, broadcast_apply,
    broadcastTo_apply x1 broadcasts_S5000x1_S5000x256 (ix2 p q) (ix2 p (0 : Fin 1))
      (fun a => by match a with | ⟨0, _⟩ => rfl | ⟨1, _⟩ => rfl),
    broadcastTo_apply x2 broadcasts_S1x256_S5000x256 (ix2 p q) (ix2 (0 : Fin 1) q)
      (fun a => by match a with | ⟨0, _⟩ => rfl | ⟨1, _⟩ => rfl)]
  exact congrArg _ Ideal.ofBits_zero_f32

/-- One block of the epilogue: if the three loaded blocks are rows n·5000 … n·5000 + 4999 of S and of d and the whole
    of b, the body's result at (p, q) is the epilogue of the arrays at (n·5000 + p, q). -/
theorem epilogueBlock1_apply (S : (⟨2, ![50000, 256]⟩ : Shape).Idx → EReal) (d : (⟨2, ![50000, 1]⟩ : Shape).Idx → EReal)
    (b : (⟨2, ![1, 256]⟩ : Shape).Idx → EReal)
    (x0 : Vec Ideal S5000x256 .f32) (x1 : Vec Ideal S5000x1 .f32) (x2 : Vec Ideal S1x256 .f32) (n : ℕ) (hn : n < 10)
    (h0 : ∀ (p : Fin 5000) (q : Fin 256), x0 (ix2 p q) = S (ix2 (⟨n * 5000 + p.val, by omega⟩ : Fin 50000) q))
    (h1 : ∀ p : Fin 5000, x1 (ix2 p (0 : Fin 1)) = d (ix2 (⟨n * 5000 + p.val, by omega⟩ : Fin 50000) (0 : Fin 1)))
    (h2 : ∀ q : Fin 256, x2 (ix2 (0 : Fin 1) q) = b (ix2 (0 : Fin 1) q))
    (j : (⟨2, ![5000, 256]⟩ : Shape).Idx) (i : (⟨2, ![50000, 256]⟩ : Shape).Idx)
    (hi0 : (i 0).val = n * 5000 + (j 0).val) (hi1 : (i 1).val = (j 1).val) :
    k1_pay1 x0 x1 x2 j = epiSpec S d b i := by
  obtain ⟨p, q, rfl⟩ : ∃ (p : Fin 5000) (q : Fin 256), j = ix2 p q := ⟨j 0, j 1, eq_ix2 j⟩
  have hb : n * 5000 + p.val < 50000 := by omega
  obtain ⟨r, s, rfl⟩ : ∃ (r : Fin 50000) (s : Fin 256), i = ix2 r s := ⟨i 0, i 1, eq_ix2 i⟩
  have hr : r = ⟨n * 5000 + p.val, hb⟩ := Fin.ext hi0
  have hs : s = q := Fin.ext hi1
  rw [hr, hs, epilogueBody1_apply, epiSpec_apply, h0, h1, h2]

variable (V : (c : Dev nD) → (b : Ref sig .tc) → Buf (Elt Ideal) ((c : Thread nD τ).loc b))

/-- The block index of each window at grid point t: S, d and the result move one block of rows per point; b stays. -/
theorem blockIndex1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = t.val ∧ win1_3.index t (1 : Fin 2) = 0 :=
  (by decide +kernel : ∀ t : Fin grid1.N, _)

/-- What point t writes back is block t of the epilogue of the arrays as the region finds them. -/
theorem flushed1_eq (c : Dev nD) (t : Fin cfg1.N) :
    (dat1 V c).flushed 3 t = ((cfg1.win 3).blk t).view.read (Elt Ideal)
      (epiSpec (V c main_v28) (V c main_v29) (V c main_v30)) := by
  show (cfg1.win 3).cut (grid1.coords t) ((dat1 V c).after 3 t) = _
  rw [after1_3]
  unfold out1_3
  rw [View.canon_unit_zero zeroOffsets1]
  simp only [View.ld_unit_zero (S := S5000x256) zeroOffsets1, View.ld_unit_zero (S := S5000x1) zeroOffsets1, View.ld_unit_zero (S := S1x256) zeroOffsets1]
  obtain ⟨e00, e01, e10, e11, e20, e21, e30, e31⟩ := blockIndex1 t
  have ht : t.val < 10 := lt_of_lt_of_eq t.isLt N_1
  funext j
  show k1_pay1 (iblk1 V c 0 t) (iblk1 V c 1 t) (iblk1 V c 2 t) j
    = epiSpec (V c main_v28) (V c main_v29) (V c main_v30) (((cfg1.win 3).blk t).view.emb j)
  refine epilogueBlock1_apply _ _ _ _ _ _ t.val ht (fun p q => ?_) (fun p => ?_) (fun q => ?_) j _ ?_ ?_
  · unfold iblk1
    rw [View.read_apply]
    show V c main_v28 _ = V c main_v28 _
    refine congrArg (V c main_v28) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 256 + 1 * q.val = q.val; rw [e01]; omega
  · unfold iblk1
    rw [View.read_apply]
    show V c main_v29 _ = V c main_v29 _
    refine congrArg (V c main_v29) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  · unfold iblk1
    rw [View.read_apply]
    show V c main_v30 _ = V c main_v30 _
    refine congrArg (V c main_v30) (funext fun a => Fin.ext ?_)
    match a with
    | ⟨0, _⟩ => show win1_2.index t (0 : Fin 2) * 1 + 1 * 0 = 0; rw [e20]
    | ⟨1, _⟩ => show win1_2.index t (1 : Fin 2) * 256 + 1 * q.val = q.val; rw [e21]; omega
  · show win1_3.index t (0 : Fin 2) * 5000 + 1 * (j 0).val = t.val * 5000 + (j 0).val
    rw [e30]; omega
  · show win1_3.index t (1 : Fin 2) * 256 + 1 * (j 1).val = (j 1).val
    rw [e31]; omega

/-- An index of the result array is in point t's block iff each coordinate is in the block's range on its axis. -/
theorem mem_block1 (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v31).slice (win1_3.rect t)).set ↔ _
  rw [View.set_slice_whole, Rect.mem_set_unit]
  exact Iff.rfl

/-- Every index of the result array is written back: row r by the point r / 5000. -/
theorem covered1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, e30, e31⟩ := blockIndex1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 256 ≤ (i 1).val ∧ (i 1).val < win1_3.index t (1 : Fin 2) * 256 + 256
    rw [e31]; omega

/-- The array the region leaves: the epilogue of the three arrays it found. -/
theorem region1_final (c : Dev nD) :
    (dat1 V c).arrAt 3 cfg1.N = epiSpec (V c main_v28) (V c main_v29) (V c main_v30) :=
  (dat1 V c).arrAt_eq_of_cover 3 (epiSpec (V c main_v28) (V c main_v29) (V c main_v30))
    (fun t _ => flushed1_eq V c t) (covered1)

end Cert.Gcn

end
-- ==== Proof.RegionMatmul2.lean ====
/-
  The second product region as one function of whole arrays: the 50000 × 256 array it leaves is, entry by entry,
  the sum over k of X (r, k) · W (k, c) of the two arrays it finds. Each grid point t handles rows
  5000 t … 5000 t + 4999 of X against the whole of W: its body's result is read at an index as the contraction's
  sum, each loaded block is read where the window's rectangle says, and the ten blocks cover the array.
-/
import proofs.«152488_j19490561589476_2_alg».proof.Proof.Gen.KernelIdeal.Frame
import proofs.«152488_j19490561589476_2_alg».proof.Proof.RegionSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.Gcn

open Cert.KernelIdeal Cert.KernelIdeal.Gen

/-- The zero offsets of a whole-block access, as a constant function. -/
theorem zeroOffsets2 : (![0, 0] : Fin 2 → Nat) = fun _ => 0 := funext fun a => by fin_cases a <;> rfl

/-- The left operand's index of the product at output (p, q) and contraction index k is (p, k) … -/
theorem productLhs2_0 (i : S5000x256.Idx) (κ : dot_S5000x256_S256x256_S5000x256_1_0_0_1_n_n.contr.Idx) :
    (dot_S5000x256_S256x256_S5000x256_1_0_0_1_n_n.lhsIdx i κ 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem productLhs2_1 (i : S5000x256.Idx) (κ : dot_S5000x256_S256x256_S5000x256_1_0_0_1_n_n.contr.Idx) :
    (dot_S5000x256_S256x256_S5000x256_1_0_0_1_n_n.lhsIdx i κ 1).val = (κ ⟨0, by decide⟩).val :=
  dot_S5000x256_S256x256_S5000x256_1_0_0_1_n_n.lhsIdx_val_of_single rfl i κ
/-- … and the right operand's is (k, q). -/
theorem productRhs2_0 (i : S5000x256.Idx) (κ : dot_S5000x256_S256x256_S5000x256_1_0_0_1_n_n.contr.Idx) :
    (dot_S5000x256_S256x256_S5000x256_1_0_0_1_n_n.rhsIdx i κ 0).val = (κ ⟨0, by decide⟩).val :=
  dot_S5000x256_S256x256_S5000x256_1_0_0_1_n_n.rhsIdx_val_of_single rfl i κ
theorem productRhs2_1 (i : S5000x256.Idx) (κ : dot_S5000x256_S256x256_S5000x256_1_0_0_1_n_n.contr.Idx) :
    (dot_S5000x256_S256x256_S5000x256_1_0_0_1_n_n.rhsIdx i κ 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The body's result at (p, q): the sum over k of the block of X at (p, k) times W at (k, q). -/
theorem productBody2_apply (x0 : Vec Ideal S5000x256 .f32) (x1 : Vec Ideal S256x256 .f32) (p : Fin 5000) (q : Fin 256) :
    k2_pay1 x0 x1 (ix2 p q) = ∑ κ : Fin 256, x0 (ix2 p κ) * x1 (ix2 κ q) := by
  unfold k2_pay1
  simp only [shapeCast_self, matmul]
  rw [Ideal.matmul_constant_zero_apply, ← Equiv.sum_comp (contrEquiv1 dot_S5000x256_S256x256_S5000x256_1_0_0_1_n_n 256 rfl rfl).symm]
  refine Finset.sum_congr rfl fun κ _ => ?_
  have hκ := contrEquiv1_symm_val dot_S5000x256_S256x256_S5000x256_1_0_0_1_n_n 256 rfl rfl κ
  have el : dot_S5000x256_S256x256_S5000x256_1_0_0_1_n_n.lhsIdx (ix2 p q) ((contrEquiv1 dot_S5000x256_S256x256_S5000x256_1_0_0_1_n_n 256 rfl rfl).symm κ) = ix2 p κ := funext fun a => Fin.ext (by
    match a with
    | ⟨0, _⟩ => exact productLhs2_0 _ _
    | ⟨1, _⟩ => exact (productLhs2_1 _ _).trans hκ)
  have er : dot_S5000x256_S256x256_S5000x256_1_0_0_1_n_n.rhsIdx (ix2 p q) ((contrEquiv1 dot_S5000x256_S256x256_S5000x256_1_0_0_1_n_n 256 rfl rfl).symm κ) = ix2 κ q := funext fun a => Fin.ext (by
    match a with
    | ⟨0, _⟩ => exact (productRhs2_0 _ _).trans hκ
    | ⟨1, _⟩ => exact productRhs2_1 _ _)
  rw [el, er]

/-- One block of the product: if the loaded blocks are rows n·5000 … n·5000 + 4999 of X and the whole of W, the body's
    result at (p, q) is the product of the arrays at (n·5000 + p, q). -/
theorem productBlock2_apply (X : (⟨2, ![50000, 256]⟩ : Shape).Idx → EReal) (W : (⟨2, ![256, 256]⟩ : Shape).Idx → EReal)
    (x0 : Vec Ideal S5000x256 .f32) (x1 : Vec Ideal S256x256 .f32) (n : ℕ) (hn : n < 10)
    (h0 : ∀ (p : Fin 5000) (κ : Fin 256), x0 (ix2 p κ) = X (ix2 (⟨n * 5000 + p.val, by omega⟩ : Fin 50000) κ))
    (h1 : ∀ (κ : Fin 256) (q : Fin 256), x1 (ix2 κ q) = W (ix2 κ q))
    (j : (⟨2, ![5000, 256]⟩ : Shape).Idx) (i : (⟨2, ![50000, 256]⟩ : Shape).Idx)
    (hi0 : (i 0).val = n * 5000 + (j 0).val) (hi1 : (i 1).val = (j 1).val) :
    k2_pay1 x0 x1 j = matmulSpec (K := 256) X W i := by
  obtain ⟨p, q, rfl⟩ : ∃ (p : Fin 5000) (q : Fin 256), j = ix2 p q := ⟨j 0, j 1, eq_ix2 j⟩
  have hb : n * 5000 + p.val < 50000 := by omega
  obtain ⟨r, s, rfl⟩ : ∃ (r : Fin 50000) (s : Fin 256), i = ix2 r s := ⟨i 0, i 1, eq_ix2 i⟩
  have hr : r = ⟨n * 5000 + p.val, hb⟩ := Fin.ext hi0
  have hs : s = q := Fin.ext hi1
  rw [hr, hs, productBody2_apply, matmulSpec_apply]
  exact Finset.sum_congr rfl fun κ _ => by rw [h0, h1]

variable (V : (c : Dev nD) → (b : Ref sig .tc) → Buf (Elt Ideal) ((c : Thread nD τ).loc b))

/-- The block index of each window at grid point t: X and the result move one block of rows per point; W stays. -/
theorem blockIndex2 : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = t.val ∧ win2_2.index t (1 : Fin 2) = 0 :=
  (by decide +kernel : ∀ t : Fin grid2.N, _)

/-- What point t writes back is block t of the product of the arrays as the region finds them. -/
theorem flushed2_eq (c : Dev nD) (t : Fin cfg2.N) :
    (dat2 V c).flushed 2 t = ((cfg2.win 2).blk t).view.read (Elt Ideal)
      (matmulSpec (K := 256) (V c main_v31) (V c main_arg3)) := by
  show (cfg2.win 2).cut (grid2.coords t) ((dat2 V c).after 2 t) = _
  rw [after2_2]
  unfold out2_2
  rw [View.canon_unit_zero zeroOffsets2]
  simp only [View.ld_unit_zero (S := S5000x256) zeroOffsets2, View.ld_unit_zero (S := S256x256) zeroOffsets2]
  obtain ⟨e00, e01, e10, e11, e20, e21⟩ := blockIndex2 t
  have ht : t.val < 10 := lt_of_lt_of_eq t.isLt N_2
  funext j
  show k2_pay1 (iblk2 V c 0 t) (iblk2 V c 1 t) j
    = matmulSpec (K := 256) (V c main_v31) (V c main_arg3) (((cfg2.win 2).blk t).view.emb j)
  refine productBlock2_apply _ _ _ _ t.val ht (fun p κ => ?_) (fun κ q => ?_) j _ ?_ ?_
  · unfold iblk2
    rw [View.read_apply]
    show V c main_v31 _ = V c main_v31 _
    refine congrArg (V c main_v31) (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 256 + 1 * κ.val = κ.val; rw [e01]; omega
  · unfold iblk2
    rw [View.read_apply]
    show V c main_arg3 _ = V c main_arg3 _
    refine congrArg (V c main_arg3) (funext fun a => Fin.ext ?_)
    match a with
    | ⟨0, _⟩ => show win2_1.index t (0 : Fin 2) * 256 + 1 * κ.val = κ.val; rw [e10]; omega
    | ⟨1, _⟩ => show win2_1.index t (1 : Fin 2) * 256 + 1 * q.val = q.val; rw [e11]; omega
  · show win2_2.index t (0 : Fin 2) * 5000 + 1 * (j 0).val = t.val * 5000 + (j 0).val
    rw [e20]; omega
  · show win2_2.index t (1 : Fin 2) * 256 + 1 * (j 1).val = (j 1).val
    rw [e21]; omega

/-- An index of the result array is in point t's block iff each coordinate is in the block's range on its axis. -/
theorem mem_block2 (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v32).slice (win2_2.rect t)).set ↔ _
  rw [View.set_slice_whole, Rect.mem_set_unit]
  exact Iff.rfl

/-- Every index of the result array is written back: row r by the point r / 5000. -/
theorem covered2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, e20, e21⟩ := blockIndex2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 256 ≤ (i 1).val ∧ (i 1).val < win2_2.index t (1 : Fin 2) * 256 + 256
    rw [e21]; omega

/-- The array the region leaves: the product of the two arrays it found. -/
theorem region2_final (c : Dev nD) :
    (dat2 V c).arrAt 2 cfg2.N = matmulSpec (K := 256) (V c main_v31) (V c main_arg3) :=
  (dat2 V c).arrAt_eq_of_cover 2 (matmulSpec (K := 256) (V c main_v31) (V c main_arg3))
    (fun t _ => flushed2_eq V c t) (covered2)

end Cert.Gcn

end
-- ==== Proof.RegionEpilogue3.lean ====
/-
  The second epilogue region as one function of whole arrays: the 50000 × 256 array it leaves is, entry by entry,
  max (S (r, c) · d (r, 0) + b (0, c), 0) of the three arrays it finds. Each grid point t handles rows
  5000 t … 5000 t + 4999: its body's result is read at an index, each loaded block is read where the window's
  rectangle says, and the ten blocks cover the array.
-/
import proofs.«152488_j19490561589476_2_alg».proof.Proof.Gen.KernelIdeal.Frame
import proofs.«152488_j19490561589476_2_alg».proof.Proof.RegionSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.Gcn

open Cert.KernelIdeal Cert.KernelIdeal.Gen

/-- The zero offsets of a whole-block access, as a constant function. -/
theorem zeroOffsets3 : (![0, 0] : Fin 2 → Nat) = fun _ => 0 := funext fun a => by fin_cases a <;> rfl

/-- The body's result at (p, q): the block of S at (p, q) times the block of d at row p, plus b at column q, and the
    maximum of that with zero. -/
theorem epilogueBody3_apply (x0 : Vec Ideal S5000x256 .f32) (x1 : Vec Ideal S5000x1 .f32) (x2 : Vec Ideal S1x256 .f32)
    (p : Fin 5000) (q : Fin 256) :
    k3_pay1 x0 x1 x2 (ix2 p q) = max (x0 (ix2 p q) * x1 (ix2 p (0 : Fin 1)) + x2 (ix2 (0 : Fin 1) q)) 0 := by
  unfold k3_pay1
  simp only [shapeCast_self]
  rw [maximumf_apply, addf_apply, mulf_apply, broadcast_apply,
    broadcastTo_apply x1 broadcasts_S5000x1_S5000x256 (ix2 p q) (ix2 p (0 : Fin 1))
      (fun a => by match a with | ⟨0, _⟩ => rfl | ⟨1, _⟩ => rfl),
    broadcastTo_apply x2 broadcasts_S1x256_S5000x256 (ix2 p q) (ix2 (0 : Fin 1) q)
      (fun a => by match a with | ⟨0, _⟩ => rfl | ⟨1, _⟩ => rfl)]
  exact congrArg _ Ideal.ofBits_zero_f32

/-- One block of the epilogue: if the three loaded blocks are rows n·5000 … n·5000 + 4999 of S and of d and the whole
    of b, the body's result at (p, q) is the epilogue of the arrays at (n·5000 + p, q). -/
theorem epilogueBlock3_apply (S : (⟨2, ![50000, 256]⟩ : Shape).Idx → EReal) (d : (⟨2, ![50000, 1]⟩ : Shape).Idx → EReal)
    (b : (⟨2, ![1, 256]⟩ : Shape).Idx → EReal)
    (x0 : Vec Ideal S5000x256 .f32) (x1 : Vec Ideal S5000x1 .f32) (x2 : Vec Ideal S1x256 .f32) (n : ℕ) (hn : n < 10)
    (h0 : ∀ (p : Fin 5000) (q : Fin 256), x0 (ix2 p q) = S (ix2 (⟨n * 5000 + p.val, by omega⟩ : Fin 50000) q))
    (h1 : ∀ p : Fin 5000, x1 (ix2 p (0 : Fin 1)) = d (ix2 (⟨n * 5000 + p.val, by omega⟩ : Fin 50000) (0 : Fin 1)))
    (h2 : ∀ q : Fin 256, x2 (ix2 (0 : Fin 1) q) = b (ix2 (0 : Fin 1) q))
    (j : (⟨2, ![5000, 256]⟩ : Shape).Idx) (i : (⟨2, ![50000, 256]⟩ : Shape).Idx)
    (hi0 : (i 0).val = n * 5000 + (j 0).val) (hi1 : (i 1).val = (j 1).val) :
    k3_pay1 x0 x1 x2 j = epiSpec S d b i := by
  obtain ⟨p, q, rfl⟩ : ∃ (p : Fin 5000) (q : Fin 256), j = ix2 p q := ⟨j 0, j 1, eq_ix2 j⟩
  have hb : n * 5000 + p.val < 50000 := by omega
  obtain ⟨r, s, rfl⟩ : ∃ (r : Fin 50000) (s : Fin 256), i = ix2 r s := ⟨i 0, i 1, eq_ix2 i⟩
  have hr : r = ⟨n * 5000 + p.val, hb⟩ := Fin.ext hi0
  have hs : s = q := Fin.ext hi1
  rw [hr, hs, epilogueBody3_apply, epiSpec_apply, h0, h1, h2]

variable (V : (c : Dev nD) → (b : Ref sig .tc) → Buf (Elt Ideal) ((c : Thread nD τ).loc b))

/-- The block index of each window at grid point t: S, d and the result move one block of rows per point; b stays. -/
theorem blockIndex3 : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = 0 ∧ win3_2.index t (1 : Fin 2) = 0
  ∧ win3_3.index t (0 : Fin 2) = t.val ∧ win3_3.index t (1 : Fin 2) = 0 :=
  (by decide +kernel : ∀ t : Fin grid3.N, _)

/-- What point t writes back is block t of the epilogue of the arrays as the region finds them. -/
theorem flushed3_eq (c : Dev nD) (t : Fin cfg3.N) :
    (dat3 V c).flushed 3 t = ((cfg3.win 3).blk t).view.read (Elt Ideal)
      (epiSpec (V c main_v45) (V c main_v46) (V c main_v47)) := by
  show (cfg3.win 3).cut (grid3.coords t) ((dat3 V c).after 3 t) = _
  rw [after3_3]
  unfold out3_3
  rw [View.canon_unit_zero zeroOffsets3]
  simp only [View.ld_unit_zero (S := S5000x256) zeroOffsets3, View.ld_unit_zero (S := S5000x1) zeroOffsets3, View.ld_unit_zero (S := S1x256) zeroOffsets3]
  obtain ⟨e00, e01, e10, e11, e20, e21, e30, e31⟩ := blockIndex3 t
  have ht : t.val < 10 := lt_of_lt_of_eq t.isLt N_3
  funext j
  show k3_pay1 (iblk3 V c 0 t) (iblk3 V c 1 t) (iblk3 V c 2 t) j
    = epiSpec (V c main_v45) (V c main_v46) (V c main_v47) (((cfg3.win 3).blk t).view.emb j)
  refine epilogueBlock3_apply _ _ _ _ _ _ t.val ht (fun p q => ?_) (fun p => ?_) (fun q => ?_) j _ ?_ ?_
  · unfold iblk3
    rw [View.read_apply]
    show V c main_v45 _ = V c main_v45 _
    refine congrArg (V c main_v45) (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 256 + 1 * q.val = q.val; rw [e01]; omega
  · unfold iblk3
    rw [View.read_apply]
    show V c main_v46 _ = V c main_v46 _
    refine congrArg (V c main_v46) (funext fun a => Fin.ext ?_)
    match a with
    | ⟨0, _⟩ => show win3_1.index t (0 : Fin 2) * 5000 + 1 * p.val = t.val * 5000 + p.val; rw [e10]; omega
    | ⟨1, _⟩ => show win3_1.index t (1 : Fin 2) * 1 + 1 * 0 = 0; rw [e11]
  · unfold iblk3
    rw [View.read_apply]
    show V c main_v47 _ = V c main_v47 _
    refine congrArg (V c main_v47) (funext fun a => Fin.ext ?_)
    match a with
    | ⟨0, _⟩ => show win3_2.index t (0 : Fin 2) * 1 + 1 * 0 = 0; rw [e20]
    | ⟨1, _⟩ => show win3_2.index t (1 : Fin 2) * 256 + 1 * q.val = q.val; rw [e21]; omega
  · show win3_3.index t (0 : Fin 2) * 5000 + 1 * (j 0).val = t.val * 5000 + (j 0).val
    rw [e30]; omega
  · show win3_3.index t (1 : Fin 2) * 256 + 1 * (j 1).val = (j 1).val
    rw [e31]; omega

/-- An index of the result array is in point t's block iff each coordinate is in the block's range on its axis. -/
theorem mem_block3 (t : Fin cfg3.N) (i : S50000x256.Idx) :
    i ∈ ((cfg3.win 3).blk t).view.set ↔ ∀ a : Fin 2, win3_3.index t a * S5000x256.size a ≤ (i a).val
      ∧ (i a).val < win3_3.index t a * S5000x256.size a + S5000x256.size a := by
  show i ∈ ((View.whole main_v48).slice (win3_3.rect t)).set ↔ _
  rw [View.set_slice_whole, Rect.mem_set_unit]
  exact Iff.rfl

/-- Every index of the result array is written back: row r by the point r / 5000. -/
theorem covered3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ : ∃ t : Fin cfg3.N, t.val = (i 0).val / 5000 :=
    ⟨⟨(i 0).val / 5000, lt_of_lt_of_eq (by omega) N_3.symm⟩, rfl⟩
  obtain ⟨-, -, -, -, -, -, e30, e31⟩ := blockIndex3 t
  refine ⟨t, flush3_3 t, ?_⟩
  rw [mem_block3]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 256 ≤ (i 1).val ∧ (i 1).val < win3_3.index t (1 : Fin 2) * 256 + 256
    rw [e31]; omega

/-- The array the region leaves: the epilogue of the three arrays it found. -/
theorem region3_final (c : Dev nD) :
    (dat3 V c).arrAt 3 cfg3.N = epiSpec (V c main_v45) (V c main_v46) (V c main_v47) :=
  (dat3 V c).arrAt_eq_of_cover 3 (epiSpec (V c main_v45) (V c main_v46) (V c main_v47))
    (fun t _ => flushed3_eq V c t) (covered3)

end Cert.Gcn

end
-- ==== Proof.KernelValue.lean ====
/-
  What the idealized kernel's result buffer holds: the network in its "scale, gather, sum, scale" arrangement.

  The program is read one segment at a time over buffer contents that are no further specified. A stretch of
  whole-array operations writes each of its results as the operations' function of the contents it reads and leaves
  every other buffer alone; a tiled region leaves in its output array the whole-array function its blocks restrict
  (the matrix product, or the epilogue max (S · d + b, 0)) and leaves every other buffer alone. Chaining the segments
  from the launch memory: the first stretch computes the source and target row numbers, the degrees and dis; then
  each layer is a product region, a stretch (scale the rows by dis, gather at the sources, sum per target) and an
  epilogue region; the last stretch is the per-graph mean.
-/
import proofs.«152488_j19490561589476_2_alg».proof.Proof.Gen.KernelIdeal.Frame
import Idealize.ShloMosaic.Lib.StableHlo.Run
import Idealize.ShloMosaic.PureOps.Ideal
import proofs.«152488_j19490561589476_2_alg».proof.Proof.NetSpec
import proofs.«152488_j19490561589476_2_alg».proof.Proof.RegionMatmul0
import proofs.«152488_j19490561589476_2_alg».proof.Proof.RegionEpilogue1
import proofs.«152488_j19490561589476_2_alg».proof.Proof.RegionMatmul2
import proofs.«152488_j19490561589476_2_alg».proof.Proof.RegionEpilogue3

set_option maxRecDepth 16384

noncomputable section

namespace Cert.Gcn.KernelValue

open Cert.KernelIdeal Cert.KernelIdeal.Gen Cert.Gcn
open Idealize.ShloMosaic Idealize.ShloMosaic.TcCoe Idealize.ShloMosaic.Tactic Idealize.SL.Sem Idealize.ShloMosaic.StableHlo

/-! ## The stretches of whole-array operations, over any contents -/

section Stretches

variable (Wb : Valuation τ sig (Elt Ideal))

/-- The first stretch leaves "deg > 0", deg ^ (−1/2) and a zero in three buffers … -/
theorem first_pos : after hostOps0 Wb (Proc.devRef .tc main_v12)
    = cmpf .ogt (degOf (dstOf (Wb (Proc.devRef .tc main_arg5))))
        (broadcastInDim ShN ![] (by decide) (constant (F := Ideal) Sh0 .f32 0x00000000#32)) := by
  after_results_simp <;> rfl
theorem first_rsqrt : after hostOps0 Wb (Proc.devRef .tc main_v13)
    = Host.rsqrt (degOf (dstOf (Wb (Proc.devRef .tc main_arg5)))) := by
  after_results_simp <;> rfl
theorem first_zero : after hostOps0 Wb (Proc.devRef .tc main_cst_2) = constant (F := Ideal) Sh0 .f32 0x00000000#32 := by
  after_results_simp <;> rfl

/-- … and the selection that follows picks between the last two by the first. -/
theorem where_select (W' : Valuation τ sig (Elt Ideal)) : after hostOps0_1 W' (Proc.devRef .tc main_v14)
    = select (W' (Proc.devRef .tc main_v12)) (W' (Proc.devRef .tc main_v13))
        (broadcastInDim ShN ![] (by decide) (W' (Proc.devRef .tc main_cst_2))) := by
  after_results_simp <;> rfl

/-- So the first stretch with the selection leaves dis in its buffer. -/
theorem head_dis : after hostOps0_1 (after hostOps0 Wb) (Proc.devRef .tc main_v14)
    = disOf (degOf (dstOf (Wb (Proc.devRef .tc main_arg5)))) := by
  rw [where_select, first_pos, first_rsqrt, first_zero]
  rfl

/-- … the source row numbers … -/
theorem head_src : after hostOps0_1 (after hostOps0 Wb) (Proc.devRef .tc main_v3) = srcOf (Wb (Proc.devRef .tc main_arg5)) := by
  after_results_simp <;> rfl

/-- … the target row numbers … -/
theorem head_dst : after hostOps0_1 (after hostOps0 Wb) (Proc.devRef .tc main_v6) = dstOf (Wb (Proc.devRef .tc main_arg5)) := by
  after_results_simp <;> rfl

/-- … and writes no argument array. -/
theorem head_arg0 : after hostOps0_1 (after hostOps0 Wb) (Proc.devRef .tc main_arg0) = Wb (Proc.devRef .tc main_arg0) := by
  after_results_simp
theorem head_arg1 : after hostOps0_1 (after hostOps0 Wb) (Proc.devRef .tc main_arg1) = Wb (Proc.devRef .tc main_arg1) := by
  after_results_simp
theorem head_arg2 : after hostOps0_1 (after hostOps0 Wb) (Proc.devRef .tc main_arg2) = Wb (Proc.devRef .tc main_arg2) := by
  after_results_simp
theorem head_arg3 : after hostOps0_1 (after hostOps0 Wb) (Proc.devRef .tc main_arg3) = Wb (Proc.devRef .tc main_arg3) := by
  after_results_simp
theorem head_arg4 : after hostOps0_1 (after hostOps0 Wb) (Proc.devRef .tc main_arg4) = Wb (Proc.devRef .tc main_arg4) := by
  after_results_simp
theorem head_arg6 : after hostOps0_1 (after hostOps0 Wb) (Proc.devRef .tc main_arg6) = Wb (Proc.devRef .tc main_arg6) := by
  after_results_simp

/-- The stretch of the first layer: the per-target sums of the gathered, scaled rows; dis as a column; the bias as a row. -/
theorem layer1_summed : after hostOps1 Wb (Proc.devRef .tc main_v28)
    = summedK (Wb (Proc.devRef .tc main_v14)) (Wb (Proc.devRef .tc main_v3)) (Wb (Proc.devRef .tc main_v6))
        (Wb (Proc.devRef .tc main_v15)) := by
  after_results_simp <;> rfl
theorem layer1_col : after hostOps1 Wb (Proc.devRef .tc main_v29)
    = shapeCast ShN1 (Wb (Proc.devRef .tc main_v14)) (by decide) := by
  after_results_simp <;> rfl
theorem layer1_bias : after hostOps1 Wb (Proc.devRef .tc main_v30)
    = shapeCast Sh1D (Wb (Proc.devRef .tc main_arg2)) (by decide) := by
  after_results_simp <;> rfl
theorem layer1_keep_dis : after hostOps1 Wb (Proc.devRef .tc main_v14) = Wb (Proc.devRef .tc main_v14) := by after_results_simp
theorem layer1_keep_src : after hostOps1 Wb (Proc.devRef .tc main_v3) = Wb (Proc.devRef .tc main_v3) := by after_results_simp
theorem layer1_keep_dst : after hostOps1 Wb (Proc.devRef .tc main_v6) = Wb (Proc.devRef .tc main_v6) := by after_results_simp
theorem layer1_keep_arg3 : after hostOps1 Wb (Proc.devRef .tc main_arg3) = Wb (Proc.devRef .tc main_arg3) := by after_results_simp
theorem layer1_keep_arg4 : after hostOps1 Wb (Proc.devRef .tc main_arg4) = Wb (Proc.devRef .tc main_arg4) := by after_results_simp
theorem layer1_keep_arg6 : after hostOps1 Wb (Proc.devRef .tc main_arg6) = Wb (Proc.devRef .tc main_arg6) := by after_results_simp

/-- The stretch of the second layer. -/
theorem layer2_summed : after hostOps3 Wb (Proc.devRef .tc main_v45)
    = summedK (Wb (Proc.devRef .tc main_v14)) (Wb (Proc.devRef .tc main_v3)) (Wb (Proc.devRef .tc main_v6))
        (Wb (Proc.devRef .tc main_v32)) := by
  after_results_simp <;> rfl
theorem layer2_col : after hostOps3 Wb (Proc.devRef .tc main_v46)
    = shapeCast ShN1 (Wb (Proc.devRef .tc main_v14)) (by decide) := by
  after_results_simp <;> rfl
theorem layer2_bias : after hostOps3 Wb (Proc.devRef .tc main_v47)
    = shapeCast Sh1D (Wb (Proc.devRef .tc main_arg4)) (by decide) := by
  after_results_simp <;> rfl
theorem layer2_keep_arg6 : after hostOps3 Wb (Proc.devRef .tc main_arg6) = Wb (Proc.devRef .tc main_arg6) := by after_results_simp

/-- The last stretch: the per-graph mean of the second layer's rows. -/
theorem tail_pool : after hostOps4 Wb (Proc.devRef .tc main_v60)
    = pool (Wb (Proc.devRef .tc main_v48)) (Wb (Proc.devRef .tc main_arg6)) := by
  after_results_simp <;> rfl

end Stretches

/-! ## The chain through the program -/

section Chain

variable (m : (ℓ : Loc nD τ sig) → Buf (Elt Ideal) ℓ) (ρ : Dev nD → PrngReg) (c : Dev nD)

/-- The seven argument arrays at launch. -/
abbrev a0 : FVec Ideal ShX .f32 := m ((c : Thread nD τ).loc main_arg0)
abbrev a1 : FVec Ideal ShW1 .f32 := m ((c : Thread nD τ).loc main_arg1)
abbrev a2 : FVec Ideal ShD .f32 := m ((c : Thread nD τ).loc main_arg2)
abbrev a3 : FVec Ideal ShW2 .f32 := m ((c : Thread nD τ).loc main_arg3)
abbrev a4 : FVec Ideal ShD .f32 := m ((c : Thread nD τ).loc main_arg4)
abbrev a5 : IVec ShEI 32 := m ((c : Thread nD τ).loc main_arg5)
abbrev a6 : IVec ShN 32 := m ((c : Thread nD τ).loc main_arg6)
/-- The row numbers and dis, from the edge table. -/
abbrev srcV : IVec ShE 32 := srcOf (a5 m c)
abbrev dstV : IVec ShE 32 := dstOf (a5 m c)
abbrev disV : FVec Ideal ShN .f32 := disOf (degOf (dstOf (a5 m c)))
/-- The first layer's output and the second layer's output. -/
abbrev h1 : FVec Ideal ShND .f32 := layerK (disV m c) (srcV m c) (dstV m c) (matmulSpec (a0 m c) (a1 m c)) (a2 m c)
abbrev h2 : FVec Ideal ShND .f32 := layerK (disV m c) (srcV m c) (dstV m c) (matmulSpec (h1 m c) (a3 m c)) (a4 m c)

/-! ### At the first region's entry -/
theorem at2_dis : W2 m ρ c (Proc.devRef .tc main_v14) = disV m c := head_dis (W0 m ρ c)
theorem at2_src : W2 m ρ c (Proc.devRef .tc main_v3) = srcV m c := head_src (W0 m ρ c)
theorem at2_dst : W2 m ρ c (Proc.devRef .tc main_v6) = dstV m c := head_dst (W0 m ρ c)
theorem at2_arg0 : W2 m ρ c (Proc.devRef .tc main_arg0) = a0 m c := head_arg0 (W0 m ρ c)
theorem at2_arg1 : W2 m ρ c (Proc.devRef .tc main_arg1) = a1 m c := head_arg1 (W0 m ρ c)
theorem at2_arg2 : W2 m ρ c (Proc.devRef .tc main_arg2) = a2 m c := head_arg2 (W0 m ρ c)
theorem at2_arg3 : W2 m ρ c (Proc.devRef .tc main_arg3) = a3 m c := head_arg3 (W0 m ρ c)
theorem at2_arg4 : W2 m ρ c (Proc.devRef .tc main_arg4) = a4 m c := head_arg4 (W0 m ρ c)
theorem at2_arg6 : W2 m ρ c (Proc.devRef .tc main_arg6) = a6 m c := head_arg6 (W0 m ρ c)

/-! ### After the first product region -/
theorem at3_xw : W3 m ρ c (Proc.devRef .tc main_v15) = matmulSpec (a0 m c) (a1 m c) :=
  (W3_arr m ρ c 2).trans ((region0_final (V2 m ρ) c).trans (by
    rw [show V2 m ρ c main_arg0 = a0 m c from at2_arg0 m ρ c, show V2 m ρ c main_arg1 = a1 m c from at2_arg1 m ρ c]))
theorem at3_dis : W3 m ρ c (Proc.devRef .tc main_v14) = disV m c := (W3_of_ne m ρ c main_v14 (by decide)).trans (at2_dis m ρ c)
theorem at3_src : W3 m ρ c (Proc.devRef .tc main_v3) = srcV m c := (W3_of_ne m ρ c main_v3 (by decide)).trans (at2_src m ρ c)
theorem at3_dst : W3 m ρ c (Proc.devRef .tc main_v6) = dstV m c := (W3_of_ne m ρ c main_v6 (by decide)).trans (at2_dst m ρ c)
theorem at3_arg2 : W3 m ρ c (Proc.devRef .tc main_arg2) = a2 m c := (W3_of_ne m ρ c main_arg2 (by decide)).trans (at2_arg2 m ρ c)
theorem at3_arg3 : W3 m ρ c (Proc.devRef .tc main_arg3) = a3 m c := (W3_of_ne m ρ c main_arg3 (by decide)).trans (at2_arg3 m ρ c)
theorem at3_arg4 : W3 m ρ c (Proc.devRef .tc main_arg4) = a4 m c := (W3_of_ne m ρ c main_arg4 (by decide)).trans (at2_arg4 m ρ c)
theorem at3_arg6 : W3 m ρ c (Proc.devRef .tc main_arg6) = a6 m c := (W3_of_ne m ρ c main_arg6 (by decide)).trans (at2_arg6 m ρ c)

/-! ### After the first layer's stretch -/
theorem at4_summed : W4 m ρ c (Proc.devRef .tc main_v28) = summedK (disV m c) (srcV m c) (dstV m c) (matmulSpec (a0 m c) (a1 m c)) :=
  (layer1_summed (W3 m ρ c)).trans (by rw [at3_dis, at3_src, at3_dst, at3_xw])
theorem at4_col : W4 m ρ c (Proc.devRef .tc main_v29) = shapeCast ShN1 (disV m c) (by decide) :=
  (layer1_col (W3 m ρ c)).trans (by rw [at3_dis])
theorem at4_bias : W4 m ρ c (Proc.devRef .tc main_v30) = shapeCast Sh1D (a2 m c) (by decide) :=
  (layer1_bias (W3 m ρ c)).trans (by rw [at3_arg2])
theorem at4_dis : W4 m ρ c (Proc.devRef .tc main_v14) = disV m c := (layer1_keep_dis (W3 m ρ c)).trans (at3_dis m ρ c)
theorem at4_src : W4 m ρ c (Proc.devRef .tc main_v3) = srcV m c := (layer1_keep_src (W3 m ρ c)).trans (at3_src m ρ c)
theorem at4_dst : W4 m ρ c (Proc.devRef .tc main_v6) = dstV m c := (layer1_keep_dst (W3 m ρ c)).trans (at3_dst m ρ c)
theorem at4_arg3 : W4 m ρ c (Proc.devRef .tc main_arg3) = a3 m c := (layer1_keep_arg3 (W3 m ρ c)).trans (at3_arg3 m ρ c)
theorem at4_arg4 : W4 m ρ c (Proc.devRef .tc main_arg4) = a4 m c := (layer1_keep_arg4 (W3 m ρ c)).trans (at3_arg4 m ρ c)
theorem at4_arg6 : W4 m ρ c (Proc.devRef .tc main_arg6) = a6 m c := (layer1_keep_arg6 (W3 m ρ c)).trans (at3_arg6 m ρ c)

/-! ### After the first epilogue region -/
theorem at5_h1 : W5 m ρ c (Proc.devRef .tc main_v31) = h1 m c :=
  (W5_arr m ρ c 3).trans ((region1_final (V4 m ρ) c).trans (by
    rw [show V4 m ρ c main_v28 = _ from at4_summed m ρ c, show V4 m ρ c main_v29 = _ from at4_col m ρ c,
      show V4 m ρ c main_v30 = _ from at4_bias m ρ c]
    rfl))
theorem at5_dis : W5 m ρ c (Proc.devRef .tc main_v14) = disV m c := (W5_of_ne m ρ c main_v14 (by decide)).trans (at4_dis m ρ c)
theorem at5_src : W5 m ρ c (Proc.devRef .tc main_v3) = srcV m c := (W5_of_ne m ρ c main_v3 (by decide)).trans (at4_src m ρ c)
theorem at5_dst : W5 m ρ c (Proc.devRef .tc main_v6) = dstV m c := (W5_of_ne m ρ c main_v6 (by decide)).trans (at4_dst m ρ c)
theorem at5_arg3 : W5 m ρ c (Proc.devRef .tc main_arg3) = a3 m c := (W5_of_ne m ρ c main_arg3 (by decide)).trans (at4_arg3 m ρ c)
theorem at5_arg4 : W5 m ρ c (Proc.devRef .tc main_arg4) = a4 m c := (W5_of_ne m ρ c main_arg4 (by decide)).trans (at4_arg4 m ρ c)
theorem at5_arg6 : W5 m ρ c (Proc.devRef .tc main_arg6) = a6 m c := (W5_of_ne m ρ c main_arg6 (by decide)).trans (at4_arg6 m ρ c)

/-! ### After the second product region -/
theorem at6_xw : W6 m ρ c (Proc.devRef .tc main_v32) = matmulSpec (h1 m c) (a3 m c) :=
  (W6_arr m ρ c 2).trans ((region2_final (V5 m ρ) c).trans (by
    rw [show V5 m ρ c main_v31 = h1 m c from at5_h1 m ρ c, show V5 m ρ c main_arg3 = a3 m c from at5_arg3 m ρ c]))
theorem at6_dis : W6 m ρ c (Proc.devRef .tc main_v14) = disV m c := (W6_of_ne m ρ c main_v14 (by decide)).trans (at5_dis m ρ c)
theorem at6_src : W6 m ρ c (Proc.devRef .tc main_v3) = srcV m c := (W6_of_ne m ρ c main_v3 (by decide)).trans (at5_src m ρ c)
theorem at6_dst : W6 m ρ c (Proc.devRef .tc main_v6) = dstV m c := (W6_of_ne m ρ c main_v6 (by decide)).trans (at5_dst m ρ c)
theorem at6_arg4 : W6 m ρ c (Proc.devRef .tc main_arg4) = a4 m c := (W6_of_ne m ρ c main_arg4 (by decide)).trans (at5_arg4 m ρ c)
theorem at6_arg6 : W6 m ρ c (Proc.devRef .tc main_arg6) = a6 m c := (W6_of_ne m ρ c main_arg6 (by decide)).trans (at5_arg6 m ρ c)

/-! ### After the second layer's stretch -/
theorem at7_summed : W7 m ρ c (Proc.devRef .tc main_v45) = summedK (disV m c) (srcV m c) (dstV m c) (matmulSpec (h1 m c) (a3 m c)) :=
  (layer2_summed (W6 m ρ c)).trans (by rw [at6_dis, at6_src, at6_dst, at6_xw])
theorem at7_col : W7 m ρ c (Proc.devRef .tc main_v46) = shapeCast ShN1 (disV m c) (by decide) :=
  (layer2_col (W6 m ρ c)).trans (by rw [at6_dis])
theorem at7_bias : W7 m ρ c (Proc.devRef .tc main_v47) = shapeCast Sh1D (a4 m c) (by decide) :=
  (layer2_bias (W6 m ρ c)).trans (by rw [at6_arg4])
theorem at7_arg6 : W7 m ρ c (Proc.devRef .tc main_arg6) = a6 m c := (layer2_keep_arg6 (W6 m ρ c)).trans (at6_arg6 m ρ c)

/-! ### After the second epilogue region -/
theorem at8_h2 : W8 m ρ c (Proc.devRef .tc main_v48) = h2 m c :=
  (W8_arr m ρ c 3).trans ((region3_final (V7 m ρ) c).trans (by
    rw [show V7 m ρ c main_v45 = _ from at7_summed m ρ c, show V7 m ρ c main_v46 = _ from at7_col m ρ c,
      show V7 m ρ c main_v47 = _ from at7_bias m ρ c]
    rfl))
theorem at8_arg6 : W8 m ρ c (Proc.devRef .tc main_arg6) = a6 m c := (W8_of_ne m ρ c main_arg6 (by decide)).trans (at7_arg6 m ρ c)

/-! ### The result -/

/-- The result buffer ends at the network of the seven argument arrays, in the "scale, gather, sum, scale" arrangement. -/
theorem result_eq : W9 m ρ c (Proc.devRef .tc main_v60)
    = netK (a0 m c) (a1 m c) (a2 m c) (a3 m c) (a4 m c) (a5 m c) (a6 m c) :=
  (tail_pool (W8 m ρ c)).trans (by rw [at8_h2, at8_arg6]; rfl)

end Chain

end Cert.Gcn.KernelValue

end
-- ==== Proof.RefValue.lean ====
/-
  What the idealized reference's result buffer holds: the network in its "gather, weigh per edge, sum" arrangement.

  The reference is one straight line of whole-array operations; its result, as the operations' composed function of
  the seven argument arrays, is literally that arrangement: the per-edge factor dis (src e) · dis (dst e) is formed
  once, each layer is a whole-array product, a gather at the sources, the per-edge weighing, the per-target sum, the
  bias and the maximum with zero, and the per-graph mean closes it.
-/
import proofs.«152488_j19490561589476_2_alg».proof.Proof.RefRunPatched
import Idealize.ShloMosaic.PureOps.Ideal
import proofs.«152488_j19490561589476_2_alg».proof.Proof.NetSpec

set_option maxRecDepth 16384

noncomputable section

namespace Cert.Gcn.RefValue

open Cert.ReferenceIdeal Cert.Gcn
open Idealize.ShloMosaic Idealize.ShloMosaic.TcCoe Idealize.SL.Sem

set_option maxHeartbeats 4000000 in
/-- The composed term of the reference's run is the network in the per-edge arrangement. -/
theorem result_eq (m : (ℓ : Loc nD τ sig) → Buf (Elt Ideal) ℓ) (c : Dev nD) :
    Cert.ReferenceIdeal.ValueP.res_main_v77 (F := Ideal) m c
      = netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.ValueP.res_main_v77
  rfl

end Cert.Gcn.RefValue

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.LibRowVector.lean ====
/-
  A vector seen as a one-row matrix, two ways.

  A vector v of extent n becomes the 1×n matrix whose only row is v either by a reshape (the n entries in row-major
  order are the same n entries) or by a broadcast that places the vector's axis on the matrix's second axis. Both read
  entry (0, k) of the matrix as v k, so the two matrices are equal — at any extent n other than 1 (at n = 1 the
  broadcast's rule for an axis of extent one applies instead, and is not needed here). Stated over any entry type.
-/
import Idealize.ShloMosaic.Lib.Pipeline.Value

namespace Cert.RowVector

open Idealize.ShloMosaic

/-- The reshape of a vector of extent n to the 1×n matrix is the broadcast of the vector along the matrix's second
    axis: both have the vector as their only row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ ![1] hb v := by
  funext j
  refine (shapeCast_addUnit_apply ![n] v hc j).trans ?_
  exact (broadcastInDim_apply (![1] : Fin 1 → Fin 2) hb v j (fun a => j a.succ) (fun a => by
    match a with
    | ⟨0, _⟩ => show (j 1).val = if n = 1 then 0 else (j 1).val; rw [if_neg hn])).symm

end Cert.RowVector
-- ==== Proof.LayerEq.lean ====
/-
  The two arrangements of one graph-convolution layer are the same array on the extended reals.

  Entry (n, c) of either arrangement is a sum over the SAME finite set of edges, those whose target row number, read
  signed, is n. In the arrangement that scales after the sum the entry is

      max ((Σ_e X (r e, c) · dis (r e)) · dis n + b c, 0),

  and in the arrangement that scales per edge it is

      max (Σ_e X (r e, c) · (dis (r e) · dis (t e)) + b c, 0),

  where r e and t e are the rows a gather reads for the source and the target number of edge e (a negative number has N
  added, then the number is clamped into [0, N − 1]). On an edge of the set the target number read signed is n, a
  number in [0, N − 1], so t e = n. The factor dis n is a non-negative extended real other than +∞, and such a factor
  distributes over a finite sum of arbitrary extended reals; with the associativity of the product the two entries
  are equal term by term.
-/
import Mathlib.Data.EReal.Operations
import Mathlib.Data.EReal.Inv
import Mathlib.Algebra.BigOperators.Group.Finset.Basic
import Idealize.ShloMosaic.Lib.ValueIdx
import Idealize.ShloMosaic.Lib.Pipeline.Value
import Idealize.ShloMosaic.PureOps.Ideal
import Idealize.ShloMosaic.PureOps.Ideal.Laws
import Idealize.ShloMosaic.PureOps.Contract
import proofs.«152488_j19490561589476_2_alg».proof.Proof.RegionSpec
import proofs.«152488_j19490561589476_2_alg».proof.Proof.LibRowGatherScatter
import proofs.«152488_j19490561589476_2_alg».proof.Proof.LibSegmentSum
import proofs.«152488_j19490561589476_2_alg».proof.Proof.LibKeepdimsColumn
import proofs.«152488_j19490561589476_2_alg».proof.Proof.LibRowVector
import proofs.«152488_j19490561589476_2_alg».proof.Proof.LayerSpec

noncomputable section

namespace Cert.Gcn

open Idealize.ShloMosaic Idealize.ShloMosaic.ValueIdx Cert.Lib.RowGatherScatter Cert.Lib.SegmentSum

/-! ## A non-negative factor below +∞ distributes over a finite sum -/

/-- For 0 ≤ t < +∞ and arbitrary extended reals f e, (Σ_{e ∈ s} f e) · t = Σ_{e ∈ s} f e · t. -/
theorem sum_mul_of_nonneg {ι : Type} (s : Finset ι) (f : ι → EReal) (t : EReal) (h0 : 0 ≤ t) (htop : t ≠ ⊤) :
    (∑ e ∈ s, f e) * t = ∑ e ∈ s, f e * t := by
  classical
  induction s using Finset.induction_on with
  | empty => rw [Finset.sum_empty, Finset.sum_empty, zero_mul]
  | insert a s ha ih =>
    rw [Finset.sum_insert ha, Finset.sum_insert ha, EReal.right_distrib_of_nonneg_of_ne_top h0 htop, ih]

/-! ## The layout pieces read at coordinates -/

/-- The matrix of zeros is 0 at every entry. -/
theorem zerosND_apply (i : ShND.Idx) : zerosND i = 0 := Ideal.ofBits_zero_f32

/-- The column of row numbers at (e, 0) is row number e. -/
theorem asCol_apply (v : IVec ShE 32) (e : Fin 850000) : asCol v (ix2 e (0 : Fin 1)) = v (ix1 e) := by
  unfold asCol
  refine broadcastInDim_apply _ _ v (ix2 e (0 : Fin 1)) (ix1 e) (fun a => ?_)
  match a with
  | ⟨0, _⟩ =>
    show e.val = if (850000 : ℕ) = 1 then 0 else e.val
    rw [if_neg (by decide)]

/-- "Add N when negative" at edge e, on the 32-bit word. -/
theorem normRows_apply (v : IVec ShE 32) (e : Fin 850000) :
    normRows v (ix1 e)
      = Scalar.select (IntOp.cmpi .slt (v (ix1 e)) 0#32) (IntOp.addi (v (ix1 e)) 50000#32) (v (ix1 e)) := rfl

/-- A per-node number repeated along the channels reads, at (r, c), the number of node r. -/
theorem perRow_apply (d : FVec Ideal ShN .f32) (r : Fin 50000) (c : Fin 256) : perRow d (ix2 r c) = d (ix1 r) := by
  unfold perRow
  refine (broadcastInDim_apply _ _ _ (ix2 r c) (ix2 r (0 : Fin 1)) (fun a => ?_)).trans ?_
  · match a with
    | ⟨0, _⟩ =>
      show r.val = if (50000 : ℕ) = 1 then 0 else r.val
      rw [if_neg (by decide)]
    | ⟨1, _⟩ =>
      show (0 : ℕ) = if (1 : ℕ) = 1 then 0 else c.val
      rw [if_pos rfl]
  · refine broadcastInDim_apply _ _ d (ix2 r (0 : Fin 1)) (ix1 r) (fun a => ?_)
    match a with
    | ⟨0, _⟩ =>
      show r.val = if (50000 : ℕ) = 1 then 0 else r.val
      rw [if_neg (by decide)]

/-- A per-edge number repeated along the channels reads, at (e, c), the number of edge e. -/
theorem perEdge_apply (w : FVec Ideal ShE .f32) (e : Fin 850000) (c : Fin 256) : perEdge w (ix2 e c) = w (ix1 e) := by
  unfold perEdge
  refine (broadcastInDim_apply _ _ _ (ix2 e c) (ix2 e (0 : Fin 1)) (fun a => ?_)).trans ?_
  · match a with
    | ⟨0, _⟩ =>
      show e.val = if (850000 : ℕ) = 1 then 0 else e.val
      rw [if_neg (by decide)]
    | ⟨1, _⟩ =>
      show (0 : ℕ) = if (1 : ℕ) = 1 then 0 else c.val
      rw [if_pos rfl]
  · refine broadcastInDim_apply _ _ w (ix2 e (0 : Fin 1)) (ix1 e) (fun a => ?_)
    match a with
    | ⟨0, _⟩ =>
      show e.val = if (850000 : ℕ) = 1 then 0 else e.val
      rw [if_neg (by decide)]

/-- A per-channel number repeated along the rows reads, at (n, c), the number of channel c. -/
theorem perCol_apply (b : FVec Ideal ShD .f32) (n : Fin 50000) (c : Fin 256) : perCol b (ix2 n c) = b (ix1 c) := by
  unfold perCol
  refine (broadcastInDim_apply _ _ _ (ix2 n c) (ix2 (0 : Fin 1) c) (fun a => ?_)).trans ?_
  · match a with
    | ⟨0, _⟩ =>
      show (0 : ℕ) = if (1 : ℕ) = 1 then 0 else n.val
      rw [if_pos rfl]
    | ⟨1, _⟩ =>
      show c.val = if (256 : ℕ) = 1 then 0 else c.val
      rw [if_neg (by decide)]
  · refine broadcastInDim_apply _ _ b (ix2 (0 : Fin 1) c) (ix1 c) (fun a => ?_)
    match a with
    | ⟨0, _⟩ =>
      show c.val = if (256 : ℕ) = 1 then 0 else c.val
      rw [if_neg (by decide)]

/-! ## The row a gather reads for an edge -/

/-- The row of an N-row array that a gather reads at the normalised row number of edge e: the number read signed,
    clamped into [0, N − 1]. -/
def readRow (v : IVec ShE 32) (e : Fin 850000) : Fin 50000 :=
  ⟨min ((asCol (normRows v)) (ix2 e (0 : Fin 1))).toInt.toNat (50000 - 1), by omega⟩

/-- The edges that land on node n: those whose target row number, read signed, is n. -/
abbrev landing (dst : IVec ShE 32) (n : Fin 50000) : Finset (Fin 850000) :=
  Finset.univ.filter (fun e : Fin 850000 => ((asCol dst) (ix2 e (0 : Fin 1))).toInt = (n.val : Int))

/-- On an edge that lands on n, the row a gather reads at the edge's target number is n. -/
theorem readRow_of_landing (dst : IVec ShE 32) (n : Fin 50000) (e : Fin 850000) (he : e ∈ landing dst n) :
    readRow dst e = n := by
  have h1 : ((asCol dst) (ix2 e (0 : Fin 1))).toInt = (n.val : Int) := (Finset.mem_filter.mp he).2
  rw [asCol_apply] at h1
  refine Fin.ext ?_
  show min ((asCol (normRows dst)) (ix2 e (0 : Fin 1))).toInt.toNat (50000 - 1) = n.val
  rw [asCol_apply, normRows_apply]
  exact normalised_row (dst (ix1 e)) 50000#32 n h1

/-! ## The gathers and the segment sums read at coordinates -/

/-- Rows taken at the normalised source numbers: entry (e, c) is the matrix at row readRow src e. -/
theorem rowsTake_apply (Y : FVec Ideal ShND .f32) (v : IVec ShE 32) (e : Fin 850000) (c : Fin 256) :
    Host.gather rowsTake Y (asCol (normRows v)) (ix2 e c) = Y (ix2 (readRow v e) c) :=
  gather_rows_apply (by decide) rowsTake_wf Y (asCol (normRows v)) e c

/-- Entries of a per-node array taken at the normalised numbers: entry e is the array at readRow v e. -/
theorem flatTake_apply (d : FVec Ideal ShN .f32) (v : IVec ShE 32) (e : Fin 850000) :
    Host.gather flatTake d (asCol (normRows v)) (ix1 e) = d (ix1 (readRow v e)) :=
  gather_flat_apply (by decide) flatTake_wf d (asCol (normRows v)) e

/-- On the extended reals the accumulating scatter of a program is the exact sum of what lands (any shapes; the two
    sides are the same function by definition). -/
theorem scatterAdd_eq_exact {s si su : Shape} {w : Nat} (d : ScatterDims s si su) (x : FVec Ideal s .f32)
    (idx : IVec si w) (upd : FVec Ideal su .f32) (i : s.Idx) :
    Host.scatterAdd d x idx upd i = Ideal.hostScatterAdd d x idx upd i := rfl

/-- Rows added into zeros at the target numbers, as the exact sum: entry (n, c) sums over the edges landing on n. -/
theorem rowsAdd_exact_apply (dst : IVec ShE 32) (u : FVec Ideal ShED .f32) (n : Fin 50000) (c : Fin 256) :
    Ideal.hostScatterAdd rowsAdd zerosND (asCol dst) u (ix2 n c) = ∑ e ∈ landing dst n, u (ix2 e c) :=
  rows_scatterAdd_apply rowsAdd_wf zerosND zerosND_apply (asCol dst) u n c

/-- Rows added into zeros at the target numbers: entry (n, c) is the sum over the edges landing on n. -/
theorem rowsAdd_apply (dst : IVec ShE 32) (u : FVec Ideal ShED .f32) (n : Fin 50000) (c : Fin 256) :
    Host.scatterAdd rowsAdd zerosND (asCol dst) u (ix2 n c) = ∑ e ∈ landing dst n, u (ix2 e c) :=
  (scatterAdd_eq_exact rowsAdd zerosND (asCol dst) u (ix2 n c)).trans (rowsAdd_exact_apply dst u n c)

/-! ## The definitions spelt out (each is its body, by definition) -/

theorem edgeNorm_def (dis : FVec Ideal ShN .f32) (src dst : IVec ShE 32) :
    edgeNorm dis src dst
      = mulf (Host.gather flatTake dis (asCol (normRows src))) (Host.gather flatTake dis (asCol (normRows dst))) := rfl

theorem summedK_def (dis : FVec Ideal ShN .f32) (src dst : IVec ShE 32) (X : FVec Ideal ShND .f32) :
    summedK dis src dst X
      = Host.scatterAdd rowsAdd zerosND (asCol dst)
          (Host.gather rowsTake (mulf X (perRow dis)) (asCol (normRows src))) := rfl

theorem layerK_def (dis : FVec Ideal ShN .f32) (src dst : IVec ShE 32) (X : FVec Ideal ShND .f32)
    (b : FVec Ideal ShD .f32) :
    layerK dis src dst X b
      = epiSpec (summedK dis src dst X) (shapeCast ShN1 dis (by decide)) (shapeCast Sh1D b (by decide)) := rfl

theorem layerR_def (dis : FVec Ideal ShN .f32) (src dst : IVec ShE 32) (X : FVec Ideal ShND .f32)
    (b : FVec Ideal ShD .f32) :
    layerR dis src dst X b
      = maximumf (addf (Host.scatterAdd rowsAdd zerosND (asCol dst)
          (mulf (Host.gather rowsTake X (asCol (normRows src))) (perEdge (edgeNorm dis src dst)))) (perCol b))
          zerosND := rfl

/-! ## The sums of the two arrangements -/

/-- The per-edge factor is dis at the source's row times dis at the target's row. -/
theorem edgeNorm_apply (dis : FVec Ideal ShN .f32) (src dst : IVec ShE 32) (e : Fin 850000) :
    edgeNorm dis src dst (ix1 e) = dis (ix1 (readRow src e)) * dis (ix1 (readRow dst e)) := by
  refine (congrFun (edgeNorm_def dis src dst) (ix1 e)).trans ?_
  refine (mulf_apply _ _ (ix1 e)).trans ?_
  rw [flatTake_apply, flatTake_apply]

/-- The sums of the pre-scaled rows: Σ over the edges landing on n of X (r e, c) · dis (r e). -/
theorem summedK_apply (dis : FVec Ideal ShN .f32) (src dst : IVec ShE 32) (X : FVec Ideal ShND .f32)
    (n : Fin 50000) (c : Fin 256) :
    summedK dis src dst X (ix2 n c)
      = ∑ e ∈ landing dst n, X (ix2 (readRow src e) c) * dis (ix1 (readRow src e)) := by
  refine (congrFun (summedK_def dis src dst X) (ix2 n c)).trans ?_
  refine (rowsAdd_apply dst _ n c).trans ?_
  refine Finset.sum_congr rfl (fun e _ => ?_)
  refine (rowsTake_apply _ src e c).trans ?_
  refine (mulf_apply X (perRow dis) _).trans ?_
  rw [perRow_apply]

/-- The sums of the rows scaled per edge: Σ over the edges landing on n of X (r e, c) · (dis (r e) · dis (t e)). -/
theorem summedR_apply (dis : FVec Ideal ShN .f32) (src dst : IVec ShE 32) (X : FVec Ideal ShND .f32)
    (n : Fin 50000) (c : Fin 256) :
    Host.scatterAdd rowsAdd zerosND (asCol dst)
        (mulf (Host.gather rowsTake X (asCol (normRows src))) (perEdge (edgeNorm dis src dst))) (ix2 n c)
      = ∑ e ∈ landing dst n,
          X (ix2 (readRow src e) c) * (dis (ix1 (readRow src e)) * dis (ix1 (readRow dst e))) := by
  refine (rowsAdd_apply dst _ n c).trans ?_
  refine Finset.sum_congr rfl (fun e _ => ?_)
  refine (mulf_apply _ _ (ix2 e c)).trans ?_
  rw [rowsTake_apply, perEdge_apply, edgeNorm_apply]

/-! ## The two arrangements at an entry, and their equality -/

theorem layerK_apply (dis : FVec Ideal ShN .f32) (src dst : IVec ShE 32) (X : FVec Ideal ShND .f32)
    (b : FVec Ideal ShD .f32) (n : Fin 50000) (c : Fin 256) :
    layerK dis src dst X b (ix2 n c)
      = max ((∑ e ∈ landing dst n, X (ix2 (readRow src e) c) * dis (ix1 (readRow src e))) * dis (ix1 n)
          + b (ix1 c)) 0 := by
  refine (congrFun (layerK_def dis src dst X b) (ix2 n c)).trans ?_
  refine (epiSpec_apply _ _ _ n c).trans ?_
  have hcol : shapeCast ShN1 dis (by decide) (ix2 n (0 : Fin 1)) = dis (ix1 n) :=
    KeepdimsColumn.shapeCast_a_a1_apply dis (by decide) n (0 : Fin 1)
  have hrow : shapeCast Sh1D b (by decide) (ix2 (0 : Fin 1) c) = b (ix1 c) := by
    refine shapeCast_apply b (by decide) (ix2 (0 : Fin 1) c) (ix1 c) ?_
    rw [Shape.rowMajor_val_two, Shape.rowMajor_val_one]
    show c.val = 0 * 256 + c.val
    omega
  rw [hcol, hrow, summedK_apply]

theorem layerR_apply (dis : FVec Ideal ShN .f32) (src dst : IVec ShE 32) (X : FVec Ideal ShND .f32)
    (b : FVec Ideal ShD .f32) (n : Fin 50000) (c : Fin 256) :
    layerR dis src dst X b (ix2 n c)
      = max ((∑ e ∈ landing dst n,
            X (ix2 (readRow src e) c) * (dis (ix1 (readRow src e)) * dis (ix1 (readRow dst e))))
          + b (ix1 c)) 0 := by
  refine (congrFun (layerR_def dis src dst X b) (ix2 n c)).trans ?_
  refine (maximumf_apply _ _ (ix2 n c)).trans ?_
  rw [zerosND_apply]
  refine congrArg (fun y => max y (0 : EReal)) ?_
  refine (addf_apply _ _ (ix2 n c)).trans ?_
  rw [summedR_apply, perCol_apply]

/-- The layer with the target's factor applied after the sum is the layer with both factors applied per edge. -/
theorem layer_eq (dis : FVec Ideal ShN .f32) (hdis : ∀ i, 0 ≤ dis i ∧ dis i ≠ ⊤) (src dst : IVec ShE 32)
    (X : FVec Ideal ShND .f32) (b : FVec Ideal ShD .f32) :
    layerK dis src dst X b = layerR dis src dst X b := by
  funext i
  obtain ⟨n, c, rfl⟩ : ∃ (n : Fin 50000) (c : Fin 256), i = ix2 n c := ⟨i 0, i 1, eq_ix2 i⟩
  rw [layerK_apply, layerR_apply]
  refine congrArg (fun y => max (y + b (ix1 c)) (0 : EReal)) ?_
  refine (sum_mul_of_nonneg _ _ (dis (ix1 n)) (hdis (ix1 n)).1 (hdis (ix1 n)).2).trans ?_
  refine Finset.sum_congr rfl (fun e he => ?_)
  rw [readRow_of_landing dst n e he, mul_assoc]

end Cert.Gcn

end
-- ==== Proof.DisBounds.lean ====
/-
  The inverse square roots of the degrees are non-negative and below +∞.

  dis n is deg n ^ (−1/2) where deg n > 0 and 0 elsewhere. Whatever extended real deg n is: if the comparison
  deg n > 0 fails the value is 0; if it holds, deg n is +∞, where the inverse square root is 0, or a positive real r,
  where it is the real 1 / √r ≥ 0. So every dis n is a non-negative extended real other than +∞.
-/
import Mathlib.Data.EReal.Operations
import Mathlib.Data.EReal.Inv
import Idealize.ShloMosaic.Lib.ValueIdx
import Idealize.ShloMosaic.PureOps.Ideal
import Idealize.ShloMosaic.PureOps.Ideal.Laws
import proofs.«152488_j19490561589476_2_alg».proof.Proof.LayerSpec

noncomputable section

namespace Cert.Gcn

open Idealize.ShloMosaic Idealize.ShloMosaic.ValueIdx

/-- "x ^ (−1/2) where x > 0, else 0" is a non-negative extended real other than +∞, for every extended real x. -/
theorem rsqrt_where_pos_bounds (x : EReal) :
    0 ≤ (Scalar.select (Ideal.cmp .ogt x 0) (Ideal.rsqrt x) 0 : EReal)
      ∧ (Scalar.select (Ideal.cmp .ogt x 0) (Ideal.rsqrt x) 0 : EReal) ≠ ⊤ := by
  by_cases hx : (0 : EReal) < x
  · have hc : Ideal.cmp .ogt x 0 = 1#1 := by
      show BitVec.ofBool (decide ((0 : EReal) < x)) = 1#1
      rw [decide_eq_true hx]
      rfl
    rw [hc, select_one]
    induction x using EReal.rec with
    | bot => exact absurd hx (not_lt_bot)
    | top =>
      rw [Ideal.rsqrt_top]
      exact ⟨le_refl _, EReal.zero_ne_top⟩
    | coe r =>
      have hr : 0 < r := EReal.coe_pos.mp hx
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt x 0 = 0#1 := by
      show BitVec.ofBool (decide ((0 : EReal) < x)) = 0#1
      rw [decide_eq_false hx]
      rfl
    rw [hc, select_zero]
    exact ⟨le_refl _, EReal.zero_ne_top⟩

/-- dis n at any node n is a non-negative extended real other than +∞, for ANY array of degrees. -/
theorem disOf_bounds (deg : FVec Ideal ShN .f32) (i : ShN.Idx) : 0 ≤ disOf deg i ∧ disOf deg i ≠ ⊤ := by
  have h : disOf deg i = Scalar.select (Ideal.cmp .ogt (deg i) 0) (Ideal.rsqrt (deg i)) 0 := by
    unfold disOf
    show Scalar.select (Ideal.cmp .ogt (deg i) (Ideal.ofBits .f32 0x00000000#32)) (Ideal.rsqrt (deg i))
      (Ideal.ofBits .f32 0x00000000#32) = _
    rw [Ideal.ofBits_zero_f32]
  rw [h]
  exact rsqrt_where_pos_bounds (deg i)

end Cert.Gcn

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«152488_j19490561589476_2_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.NetEq.lean ====
/-
  The two arrangements of the network are one function.

  The two arrangements of a layer are equal (LayerEq), dis being non-negative and below +∞ everywhere (DisBounds), and
  the matrix product read entry by entry, Σ_k X (r, k) · W (k, c), is the whole-array product; so the two networks
  agree for whatever extended reals x, W1, b1, W2, b2 hold.
-/
import proofs.«152488_j19490561589476_2_alg».proof.Proof.NetSpec
import proofs.«152488_j19490561589476_2_alg».proof.Proof.LayerEq
import proofs.«152488_j19490561589476_2_alg».proof.Proof.DisBounds
import proofs.«152488_j19490561589476_2_alg».proof.Proof.LibRowBlockMatmul

noncomputable section

namespace Cert.Gcn

open Idealize.ShloMosaic Idealize.ShloMosaic.ValueIdx

/-- The product read entry by entry is the whole-array product. -/
theorem matmulSpec_eq_dot {K : ℕ} (X : FVec Ideal ⟨2, ![50000, K]⟩ .f32) (W : FVec Ideal ⟨2, ![K, 256]⟩ .f32) :
    matmulSpec X W = Host.dotGeneral (DotDims.plain 50000 K 256) none X W := by
  funext i
  obtain ⟨r, c, rfl⟩ : ∃ (r : Fin 50000) (c : Fin 256), i = ix2 r c := ⟨i 0, i 1, eq_ix2 i⟩
  rw [matmulSpec_apply]
  exact (Cert.RowBlockMatmul.plainDot_apply .single X W r c).symm

/-- The two networks are one function. -/
theorem netK_eq_netR (x : FVec Ideal ShX .f32) (W1 : FVec Ideal ShW1 .f32) (b1 : FVec Ideal ShD .f32)
    (W2 : FVec Ideal ShW2 .f32) (b2 : FVec Ideal ShD .f32) (ei : IVec ShEI 32) (batch : IVec ShN 32) :
    netK x W1 b1 W2 b2 ei batch = netR x W1 b1 W2 b2 ei batch := by
  unfold netK netR
  rw [matmulSpec_eq_dot, layer_eq _ (disOf_bounds _), matmulSpec_eq_dot, layer_eq _ (disOf_bounds _)]

end Cert.Gcn

end
-- ==== Proof.lean ====
/- The proof of `Cert.Claim`: a two-layer graph convolution with a per-graph mean, computed by four tiled regions among
   whole-array operations, against the same network written as one straight line of whole-array operations.

   Both programs compute deg (the number of edges landing on each node, self-loops included), dis = deg^(−1/2) where
   deg > 0 and 0 elsewhere, twice the layer  out (n, c) = max (Σ_{e lands on n} (X·W) (src e, c) · dis (src e) · dis (dst e)
   + b c, 0), and the mean over the nodes of each graph. They differ in where the two factors of dis enter a layer: the
   reference multiplies dis (src e) · dis (dst e) onto each gathered row before the per-target sum; the kernel scales
   the rows of X·W by dis before the gather and scales the sum of row n by dis n afterwards. On an edge that lands on
   n the factor dis (dst e) is dis n, and dis n is a non-negative number below +∞ whatever deg n is, so it may be taken
   out of the sum on the extended reals; the remaining regrouping is associativity of the product. Nothing else
   differs, so the equality holds for all extended-real inputs and the precondition is not opened.

   Modules: RegionSpec / LayerSpec / NetSpec state the functions; RegionMatmul0 / RegionEpilogue1 / RegionMatmul2 /
   RegionEpilogue3 read each region's output array as its whole-array function; KernelRun names the kernel's result
   in its run and KernelValue reads it as the network (kernel arrangement); RefRunPatched is the reference's run and
   RefValue reads its result as the network (reference arrangement); LayerEq, DisBounds and NetEq prove the two
   arrangements equal. The frames of the two kernel programs are the generated ones; the reference's frame is its run
   with the result dropped; the idealization rewrote nothing. -/
import proofs.«152488_j19490561589476_2_alg».proof.Defs
import proofs.«152488_j19490561589476_2_alg».proof.Proof.Gen.Kernel
import proofs.«152488_j19490561589476_2_alg».proof.Proof.Gen.Kernel.Skeleton
import proofs.«152488_j19490561589476_2_alg».proof.Proof.Gen.Kernel.Launch
import proofs.«152488_j19490561589476_2_alg».proof.Proof.Gen.Kernel.Points
import proofs.«152488_j19490561589476_2_alg».proof.Proof.Gen.Kernel.Frame
import proofs.«152488_j19490561589476_2_alg».proof.Proof.Gen.KernelIdeal
import proofs.«152488_j19490561589476_2_alg».proof.Proof.Gen.KernelIdeal.Skeleton
import proofs.«152488_j19490561589476_2_alg».proof.Proof.Gen.KernelIdeal.Launch
import proofs.«152488_j19490561589476_2_alg».proof.Proof.Gen.KernelIdeal.Points
import proofs.«152488_j19490561589476_2_alg».proof.Proof.Gen.KernelIdeal.Frame
import proofs.«152488_j19490561589476_2_alg».proof.Proof.Gen.ReferenceIdeal
import proofs.«152488_j19490561589476_2_alg».proof.Proof.Gen.Pre_finite_inputs
import proofs.«152488_j19490561589476_2_alg».proof.Proof.KernelRun
import proofs.«152488_j19490561589476_2_alg».proof.Proof.KernelValue
import proofs.«152488_j19490561589476_2_alg».proof.Proof.RefRunPatched
import proofs.«152488_j19490561589476_2_alg».proof.Proof.RefValue
import proofs.«152488_j19490561589476_2_alg».proof.Proof.NetEq
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result: each ends at the
    network of its own argument arrays, in its own arrangement, and the two arrangements are one function. -/
theorem algebraic : Cert.algebraic_KernelIdeal_ReferenceIdeal := by
  intro m ρ m' ρ' _ hagree
  refine ⟨fun c => Cert.Gcn.netK (Cert.Gcn.KernelValue.a0 m c) (Cert.Gcn.KernelValue.a1 m c) (Cert.Gcn.KernelValue.a2 m c)
    (Cert.Gcn.KernelValue.a3 m c) (Cert.Gcn.KernelValue.a4 m c) (Cert.Gcn.KernelValue.a5 m c) (Cert.Gcn.KernelValue.a6 m c), ?_, ?_⟩
  · exact (θ_run Cert.KernelIdeal.defs _ _).mono
      (fun r h c => ⟨(h c).1.trans (Cert.Gcn.KernelValue.result_eq m ρ c), (h c).2⟩)
      (Cert.Gcn.KernelRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.Gcn.RefValue.result_eq m' c, (hagree c).1, (hagree c).2.1, (hagree c).2.2.1, (hagree c).2.2.2.1,
      (hagree c).2.2.2.2.1, (hagree c).2.2.2.2.2.1, (hagree c).2.2.2.2.2.2]
    exact (Cert.Gcn.netK_eq_netR _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
